-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x1024 : Shape := ⟨2, ![16384, 1024]⟩
abbrev S32x128 : Shape := ⟨2, ![32, 128]⟩
abbrev S4096x256 : Shape := ⟨2, ![4096, 256]⟩
abbrev S4096x1024 : Shape := ⟨2, ![4096, 1024]⟩
abbrev S4096 : Shape := ⟨1, ![4096]⟩
abbrev S32x1024 : Shape := ⟨2, ![32, 1024]⟩
abbrev S32 : Shape := ⟨1, ![32]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S4096x256 : S_.BroadcastsInDim S4096x256 (![] : Fin 0 → Fin S4096x256.rank)
  reducesTo_S4096x256_S_d0_1 : S4096x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32x1024 .f32) (main_arg10 : FVec F S32 .f32) (main_v33 : IVec S_ 1) : IVec S_ 1 :=
  let main_v34 : FVec F S32x1024 .f32 := Host.absf main_arg9
  let main_cst_12 : FVec F S_ .f32 := constant S_ .f32 0x7F800000#32
  let main_v35 : FVec F S32x1024 .f32 := broadcastInDim S32x1024 ![] bcast_S_S32x1024 main_cst_12
  let main_v36 : IVec S32x1024 1 := cmpf .olt main_v34 main_v35
  let main_c_13 : IVec S_ 1 := constantI S_ 1 1#1
  let main_v37 : IVec S_ 1 := (fun x v => Host.reduce IntOp.andi x v reducesTo_S32x1024_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S4096x1024 .f32) (main_arg7 : FVec F S4096 .f32) (main_arg8 : FVec F S4096 .f32) (main_arg9 : FVec F S32x1024 .f32) (main_arg10 : FVec F S32 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x1024 .f32 := Host.absf main_arg6
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg7
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg8
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg9 main_arg10 main_v33

def fn {F : FTy → Type} [FloatOps F] (main_arg0 : IVec S16384 32) (main_arg1 : IVec S16384 32) (main_arg2 : FVec F S16384x1024 .f32) (main_arg3 : FVec F S16384x1024 .f32) (main_arg4 : FVec F S32x128 .f32) (main_arg5 : FVec F S4096x256 .f32) (main_arg6 : FVec F S4096x1024 .f32) (main_arg7 : FVec F S4096 .f32) (main_arg8 : FVec F S4096 .f32) (main_arg9 : FVec F S32x1024 .f32) (main_arg10 : FVec F S32 .f32) : IVec S_ 1 :=
  let main_v0 : FVec F S16384x1024 .f32 := Host.absf main_arg2
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg3
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S4096x256 .f32 := Host.absf main_arg5
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg6 main_arg7 main_arg8 main_arg9 main_arg10 main_v13 main_v16
-- ==== Kernel.lean ====
abbrev S16384 : Shape := ⟨1, ![16384]⟩
abbrev S16384x1024 : Shape := ⟨2, ![16384, 1024]⟩
abbrev S32x128 : Shape := ⟨2, ![32, 128]⟩
abbrev S4096x256 : Shape := ⟨2, ![4096, 256]⟩
abbrev S4096x1024 : Shape := ⟨2, ![4096, 1024]⟩
abbrev S4096 : Shape := ⟨1, ![4096]⟩
abbrev S32x1024 : Shape := ⟨2, ![32, 1024]⟩
abbrev S32 : Shape := ⟨1, ![32]⟩
abbrev S_ : Shape := ⟨0, ![]⟩
abbrev S16384x1 : Shape := ⟨2, ![16384, 1]⟩
abbrev S16384x128 : Shape := ⟨2, ![16384, 128]⟩
abbrev S16384x256 : Shape := ⟨2, ![16384, 256]⟩
abbrev S1x4096 : Shape := ⟨2, ![1, 4096]⟩
abbrev S1x32 : Shape := ⟨2, ![1, 32]⟩
abbrev S16384x32 : Shape := ⟨2, ![16384, 32]⟩
abbrev S512x256 : Shape := ⟨2, ![512, 256]⟩
abbrev S512x1024 : Shape := ⟨2, ![512, 1024]⟩
abbrev S512x32 : Shape := ⟨2, ![512, 32]⟩
abbrev S1024x256 : Shape := ⟨2, ![1024, 256]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩

abbrev nBuf : Space → Nat
  | .hbm => 39
  | .vmem => 18
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x1024, .f32⟩
  | .hbm, ⟨3, _⟩ => ⟨S16384x1024, .f32⟩
  | .hbm, ⟨4, _⟩ => ⟨S32x128, .f32⟩
  | .hbm, ⟨5, _⟩ => ⟨S4096x256, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S32x1024, .f32⟩
  | .hbm, ⟨10, _⟩ => ⟨S32, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x128, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x128, .f32⟩
  | .hbm, ⟨29, _⟩ => ⟨S16384x256, .f32⟩
  | .hbm, ⟨30, _⟩ => ⟨S4096x256, .bf16⟩
  | .hbm, ⟨31, _⟩ => ⟨S4096x1024, .bf16⟩
  | .hbm, ⟨32, _⟩ => ⟨S32x1024, .bf16⟩
  | .hbm, ⟨33, _⟩ => ⟨S1x4096, .f32⟩
  | .hbm, ⟨34, _⟩ => ⟨S1x4096, .f32⟩
  | .hbm, ⟨35, _⟩ => ⟨S1x32, .f32⟩
  | .hbm, ⟨36, _⟩ => ⟨S16384x32, .f32⟩
  | .hbm, ⟨37, _⟩ => ⟨S16384x1024, .f32⟩
  | .hbm, ⟨38, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x256, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S32x1024, .bf16⟩
  | .local _ .vmem, ⟨11, _⟩ => ⟨S1x32, .f32⟩
  | .local _ .vmem, ⟨12, _⟩ => ⟨S512x32, .f32⟩
  | .local _ .vmem, ⟨13, _⟩ => ⟨S512x32, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x128_S16384x128_S16384x256_d1 : Shape.Concatenates [S16384x128, S16384x128] S16384x256 1
  bitsLt_bf16_f32 : FTy.bits .bf16 < FTy.bits .f32
  shapeCasts_S4096_S1x4096 : S4096.ShapeCasts S1x4096
  shapeCasts_S32_S1x32 : S32.ShapeCasts S1x32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1024_S512x1024_0_0 : ∀ a, (![0, 0] : Fin 2 → Nat) a + S512x1024.size a ≤ S512x1024.size a
  h_S512x1024 : 0 < S512x1024.numel
  inb_S4096x256_S1024x256_0_0 : ∀ a, (![0, 0] : Fin 2 → Nat) a + S1024x256.size a ≤ S4096x256.size a
  h_S1024x256 : 0 < S1024x256.numel
  shapeCasts_S1024x256_S1024x256 : S1024x256.ShapeCasts S1024x256
  inb_S4096x1024_S1024x1024_0_0 : ∀ a, (![0, 0] : Fin 2 → Nat) a + S1024x1024.size a ≤ S4096x1024.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S4096x256_S1024x256_1024_0 : ∀ a, (![1024, 0] : Fin 2 → Nat) a + S1024x256.size a ≤ S4096x256.size a
  inb_S4096x1024_S1024x1024_1024_0 : ∀ a, (![1024, 0] : Fin 2 → Nat) a + S1024x1024.size a ≤ S4096x1024.size a
  inb_S1x4096_S1x1024_0_1024 : ∀ a, (![0, 1024] : Fin 2 → Nat) a + S1x1024.size a ≤ S1x4096.size a
  inb_S4096x256_S1024x256_2048_0 : ∀ a, (![2048, 0] : Fin 2 → Nat) a + S1024x256.size a ≤ S4096x256.size a
  inb_S4096x1024_S1024x1024_2048_0 : ∀ a, (![2048, 0] : Fin 2 → Nat) a + S1024x1024.size a ≤ S4096x1024.size a
  inb_S1x4096_S1x1024_0_2048 : ∀ a, (![0, 2048] : Fin 2 → Nat) a + S1x1024.size a ≤ S1x4096.size a
  inb_S4096x256_S1024x256_3072_0 : ∀ a, (![3072, 0] : Fin 2 → Nat) a + S1024x256.size a ≤ S4096x256.size a
  inb_S4096x1024_S1024x1024_3072_0 : ∀ a, (![3072, 0] : Fin 2 → Nat) a + S1024x1024.size a ≤ S4096x1024.size a
  inb_S1x4096_S1x1024_0_3072 : ∀ a, (![0, 3072] : Fin 2 → Nat) a + S1x1024.size a ≤ S1x4096.size a
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  reduces_S512x32_S512 : S512x32.Reduces [1] S512
  shapeCasts_S512_S512x1 : S512.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  gather_S32x128_S16384x1_S16384x128_1_0_n_n_0_1_1128_wf : GatherDims.WF S32x128 S16384x1 S16384x128 [1] [0] [] [0] [] 1 ![1, 128]
  dot_S512x256_S1024x256_S512x1024_1_1_0_0_n_n_wf : DotDims.WF S512x256 S1024x256 S512x1024 [1] [1] [0] [0] [] []
  dot_S512x1024_S1024x1024_S512x1024_1_1_0_0_n_n_wf : DotDims.WF S512x1024 S1024x1024 S512x1024 [1] [1] [0] [0] [] []
  dot_S512x1024_S32x1024_S512x32_1_1_0_0_n_n_wf : DotDims.WF S512x1024 S32x1024 S512x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .bf16 = 32 ∨ (Rect.block (s := S4096x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1024.size a ≤ S32x1024.size a
  hwx0_7 : ∀ i : grid0.Coords, EltTy.bits .bf16 = 32 ∨ (Rect.block (s := S32x1024) S32x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x32.size a ≤ S16384x32.size a
  hwx0_9 : ∀ i : grid0.Coords, EltTy.bits .f32 = 32 ∨ (Rect.block (s := S16384x32) S512x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S16384x1024.size a
  hwx0_10 : ∀ i : grid0.Coords, EltTy.bits .f32 = 32 ∨ (Rect.block (s := S16384x1024) S512x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .f32 = 32 ∨ (Rect.block (s := S16384x1024) S512x1024.size (cc0_transform_11 i) (hinb0_11 i)).WholeWords (EltTy.packing .f32)

variable [Facts₀]

def gather_S32x128_S16384x1_S16384x128_1_0_n_n_0_1_1128 : GatherDims S32x128 S16384x1 S16384x128 where
  offsetDims := [1]
  collapsedSliceDims := [0]
  operandBatchingDims := []
  startIndicesBatchingDims := []
  startIndexMap := [0]
  indexVectorDim := 1
  sliceSizes := ![1, 128]
  wf := gather_S32x128_S16384x1_S16384x128_1_0_n_n_0_1_1128_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S32x1024_S512x32_1_1_0_0_n_n : DotDims S512x1024 S32x1024 S512x32 where
  lhsContracting := [1]
  rhsContracting := [1]
  lhsNonContracting := [0]
  rhsNonContracting := [0]
  lhsBatch := []
  rhsBatch := []
  wf := dot_S512x1024_S32x1024_S512x32_1_1_0_0_n_n_wf

abbrev win0_0 : Pipeline.Window sig grid0 :=
  Pipeline.Window.ofSpec (Memref.whole main_v14) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S32x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21_0) S512x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21_1) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v21_2) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384 : Shape := ⟨1, ![16384]⟩
abbrev S16384x1024 : Shape := ⟨2, ![16384, 1024]⟩
abbrev S32x128 : Shape := ⟨2, ![32, 128]⟩
abbrev S4096x256 : Shape := ⟨2, ![4096, 256]⟩
abbrev S4096x1024 : Shape := ⟨2, ![4096, 1024]⟩
abbrev S4096 : Shape := ⟨1, ![4096]⟩
abbrev S32x1024 : Shape := ⟨2, ![32, 1024]⟩
abbrev S32 : Shape := ⟨1, ![32]⟩
abbrev S_ : Shape := ⟨0, ![]⟩
abbrev S16384x1 : Shape := ⟨2, ![16384, 1]⟩
abbrev S16384x128 : Shape := ⟨2, ![16384, 128]⟩
abbrev S16384x256 : Shape := ⟨2, ![16384, 256]⟩
abbrev S256x4096 : Shape := ⟨2, ![256, 4096]⟩
abbrev S16384x4096 : Shape := ⟨2, ![16384, 4096]⟩
abbrev S1x4096 : Shape := ⟨2, ![1, 4096]⟩
abbrev S1024x4096 : Shape := ⟨2, ![1024, 4096]⟩
abbrev S1024x32 : Shape := ⟨2, ![1024, 32]⟩
abbrev S16384x32 : Shape := ⟨2, ![16384, 32]⟩
abbrev S1x32 : Shape := ⟨2, ![1, 32]⟩

abbrev nBuf : Space → Nat
  | .hbm => 94
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x1024, .f32⟩
  | .hbm, ⟨3, _⟩ => ⟨S16384x1024, .f32⟩
  | .hbm, ⟨4, _⟩ => ⟨S32x128, .f32⟩
  | .hbm, ⟨5, _⟩ => ⟨S4096x256, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S32x1024, .f32⟩
  | .hbm, ⟨10, _⟩ => ⟨S32, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x128, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x128, .f32⟩
  | .hbm, ⟨29, _⟩ => ⟨S16384x256, .f32⟩
  | .hbm, ⟨30, _⟩ => ⟨S256x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S1024x4096, .f32⟩
  | .hbm, ⟨36, _⟩ => ⟨S16384x4096, .f32⟩
  | .hbm, ⟨37, _⟩ => ⟨S16384x4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S1024x32, .f32⟩
  | .hbm, ⟨76, _⟩ => ⟨S16384x32, .f32⟩
  | .hbm, ⟨77, _⟩ => ⟨S1x32, .f32⟩
  | .hbm, ⟨78, _⟩ => ⟨S16384x32, .f32⟩
  | .hbm, ⟨79, _⟩ => ⟨S16384x32, .f32⟩
  | .hbm, ⟨80, _⟩ => ⟨S_, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x32, .f32⟩
  | .hbm, ⟨93, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x128_S16384x128_S16384x256_d1 : Shape.Concatenates [S16384x128, S16384x128] S16384x256 1
  transposes_S4096x256_S256x4096_1_0 : S4096x256.Transposes [1, 0] S256x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S4096x1024_S1024x4096_1_0 : S4096x1024.Transposes [1, 0] S1024x4096
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  transposes_S32x1024_S1024x32_1_0 : S32x1024.Transposes [1, 0] S1024x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  reducesTo_S16384x32_S16384_d1 : S16384x32.ReducesTo [1] S16384
  h_S_ : 0 < S_.numel
  bcast_S16384x1_S16384x32_0_1 : S16384x1.BroadcastsInDim S16384x32 (![0, 1] : Fin 2 → Fin S16384x32.rank)
  gather_S32x128_S16384x1_S16384x128_1_0_n_n_0_1_1128_wf : GatherDims.WF S32x128 S16384x1 S16384x128 [1] [0] [] [0] [] 1 ![1, 128]
  dot_S16384x256_S256x4096_S16384x4096_1_0_0_1_n_n_wf : DotDims.WF S16384x256 S256x4096 S16384x4096 [1] [0] [0] [1] [] []
  dot_S16384x1024_S1024x4096_S16384x4096_1_0_0_1_n_n_wf : DotDims.WF S16384x1024 S1024x4096 S16384x4096 [1] [0] [0] [1] [] []
  dot_S16384x1024_S1024x32_S16384x32_1_0_0_1_n_n_wf : DotDims.WF S16384x1024 S1024x32 S16384x32 [1] [0] [0] [1] [] []

variable [Facts₀]

def gather_S32x128_S16384x1_S16384x128_1_0_n_n_0_1_1128 : GatherDims S32x128 S16384x1 S16384x128 where
  offsetDims := [1]
  collapsedSliceDims := [0]
  operandBatchingDims := []
  startIndicesBatchingDims := []
  startIndexMap := [0]
  indexVectorDim := 1
  sliceSizes := ![1, 128]
  wf := gather_S32x128_S16384x1_S16384x128_1_0_n_n_0_1_1128_wf
def dot_S16384x256_S256x4096_S16384x4096_1_0_0_1_n_n : DotDims S16384x256 S256x4096 S16384x4096 where
  lhsContracting := [1]
  rhsContracting := [0]
  lhsNonContracting := [0]
  rhsNonContracting := [1]
  lhsBatch := []
  rhsBatch := []
  wf := dot_S16384x256_S256x4096_S16384x4096_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x32_S16384x32_1_0_0_1_n_n : DotDims S16384x1024 S1024x32 S16384x32 where
  lhsContracting := [1]
  rhsContracting := [0]
  lhsNonContracting := [0]
  rhsNonContracting := [1]
  lhsBatch := []
  rhsBatch := []
  wf := dot_S16384x1024_S1024x32_S16384x32_1_0_0_1_n_n_wf

class Facts : Prop extends Facts₀ where

variable [Facts]
-- ==== Proof.LibMatmulRows.lean ====
/-
  A general reading lemma: at the ideal values, a matrix product that contracts the LAST axis of both operands
  (a product with the second operand transposed, [m, k] · [n, k]ᵀ), accumulated into the zero splat, read at an
  index, is the sum over the contracted coordinate of the products of the two rows' entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMatmulRows

/-- A `tpu.matmul` of an [m, k] operand with an [n, k] operand, contracting axis 1 of both, into the f32 zero splat,
    read at (a, b) at the ideal values: the sum over `c : Fin k` of the first operand at (a, c) times the second at
    (b, c) — for any extents and operand formats. `w` is the record's well-formedness, which a program states. -/
theorem matmul_rows_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulRows

end
-- ==== Proof.PayGates.lean ====
/-
  The body of the kernel at one grid point, read entry by entry at the ideal values: the gate pre-activations.

  A block holds 512 batch rows. For one gate the body multiplies the block of the input (512 × 256) by the gate's
  1024 rows of W_ih and the block of the hidden state (512 × 1024) by the gate's 1024 rows of W_hh, both products
  contracting the LAST axis of both operands, adds the two, and adds the gate's slice of each bias row spread over
  the 512 rows. Entry (p, q) of the result is therefore
    (Σₑ x(p,e)·W_ih(q,e) + Σ_d h(p,d)·W_hh(q,d)) + b_ih(0,q) + b_hh(0,q)
  with the weights' and biases' rows counted inside the gate's slice. The casts to the narrower float format are
  the identity on the extended reals, and a shape cast to the same shape is the identity.
-/
import proofs.«158258_j56341380989616_1_alg».proof.Proof.Gen.KernelIdeal.Skeleton
import proofs.«158258_j56341380989616_1_alg».proof.Proof.LibMatmulRows
import Idealize.ShloMosaic.Lib.ValueLayout
import Idealize.ShloMosaic.Lib.Pipeline.Value

noncomputable section

open Idealize.ShloMosaic Idealize.ShloMosaic.ValueIdx Cert.KernelIdeal Cert.KernelIdeal.Gen
open scoped BigOperators

namespace Cert.KernelIdeal.Block

/-- An a × b block of extended reals. -/
abbrev BMat (a b : ℕ) : Type := (⟨2, ![a, b]⟩ : Shape).Idx → EReal

/-- One gate's pre-activation at entry (p, q) of a block, from the block of the input, the block of the hidden
    state, the gate's rows of the two weight arrays and the gate's slices of the two bias rows. -/
def bpre (x : BMat 512 256) (h : BMat 512 1024) (wi : BMat 1024 256) (wh : BMat 1024 1024) (bi bh : BMat 1 1024)
    (p : Fin 512) (q : Fin 1024) : EReal :=
  ((∑ e : Fin 256, x (ix2 p e) * wi (ix2 q e)) + (∑ d : Fin 1024, h (ix2 p d) * wh (ix2 q d)))
    + bi (ix2 (0 : Fin 1) q) + bh (ix2 (0 : Fin 1) q)

/-- The product of the input block with a gate's rows of W_ih, entry (p, q). -/
theorem mm_x (A : FVec Ideal S512x256 .bf16) (B : FVec Ideal S1024x256 .bf16) (p : Fin 512) (q : Fin 1024) :
    matmul dot_S512x256_S1024x256_S512x1024_1_1_0_0_n_n none A B (constant (F := Ideal) S512x1024 .f32 0x00000000#32) (ix2 p q)
      = ∑ e : Fin 256, A (ix2 p e) * B (ix2 q e) :=
  Cert.LibMatmulRows.matmul_rows_apply dot_S512x256_S1024x256_S512x1024_1_1_0_0_n_n.wf none A B p q

/-- The product of the hidden-state block with a gate's rows of W_hh, entry (p, q). -/
theorem mm_h (A : FVec Ideal S512x1024 .bf16) (B : FVec Ideal S1024x1024 .bf16) (p : Fin 512) (q : Fin 1024) :
    matmul dot_S512x1024_S1024x1024_S512x1024_1_1_0_0_n_n none A B (constant (F := Ideal) S512x1024 .f32 0x00000000#32) (ix2 p q)
      = ∑ d : Fin 1024, A (ix2 p d) * B (ix2 q d) :=
  Cert.LibMatmulRows.matmul_rows_apply dot_S512x1024_S1024x1024_S512x1024_1_1_0_0_n_n.wf none A B p q

/-- The input block cast to the narrower format is the input block. -/
theorem pay3_apply (x0 : FVec Ideal S512x256 .f32) (i : S512x256.Idx) : k0_pay3 (F := Ideal) x0 i = x0 i := by
  unfold k0_pay3
  rw [shapeCast_self]
  rfl

/-- The hidden-state block cast to the narrower format is the hidden-state block. -/
theorem pay4_apply (x1 : FVec Ideal S512x1024 .f32) (i : S512x1024.Idx) : k0_pay4 (F := Ideal) x1 i = x1 i := rfl

/-- The two products of one gate added, entry (p, q), from the blocks as loaded. -/
theorem proj_apply (x0 : FVec Ideal S512x256 .f32) (x1 : FVec Ideal S512x1024 .f32) (w : FVec Ideal S1024x256 .bf16)
    (u : FVec Ideal S1024x1024 .bf16) (p : Fin 512) (q : Fin 1024) :
    addf (matmul dot_S512x256_S1024x256_S512x1024_1_1_0_0_n_n none (k0_pay3 (F := Ideal) x0)
            (shapeCast S1024x256 w shapeCasts_S1024x256_S1024x256) (constant (F := Ideal) S512x1024 .f32 0x00000000#32))
         (matmul dot_S512x1024_S1024x1024_S512x1024_1_1_0_0_n_n none (k0_pay4 (F := Ideal) x1)
            (shapeCast S1024x1024 u shapeCasts_S1024x1024_S1024x1024) (constant (F := Ideal) S512x1024 .f32 0x00000000#32)) (ix2 p q)
      = (∑ e : Fin 256, x0 (ix2 p e) * w (ix2 q e)) + (∑ d : Fin 1024, x1 (ix2 p d) * u (ix2 q d)) := by
  rw [shapeCast_self, shapeCast_self]
  show matmul dot_S512x256_S1024x256_S512x1024_1_1_0_0_n_n none (k0_pay3 (F := Ideal) x0) w (constant (F := Ideal) S512x1024 .f32 0x00000000#32) (ix2 p q)
      + matmul dot_S512x1024_S1024x1024_S512x1024_1_1_0_0_n_n none (k0_pay4 (F := Ideal) x1) u (constant (F := Ideal) S512x1024 .f32 0x00000000#32) (ix2 p q) = _
  rw [mm_x, mm_h]
  simp only [pay3_apply, pay4_apply]

/-- A bias row's slice spread over the 512 rows of the block, entry (p, q). -/
theorem bias_apply (b : FVec Ideal S1x1024 .f32) (p : Fin 512) (q : Fin 1024) :
    broadcastTo S512x1024 (shapeCast S1x1024 b shapeCasts_S1x1024_S1x1024) broadcasts_S1x1024_S512x1024 (ix2 p q)
      = b (ix2 (0 : Fin 1) q) := by
  rw [shapeCast_self]
  exact broadcastTo_1b_ab_apply b broadcasts_S1x1024_S512x1024 p q

/-- The first gate as the body computes it in one piece. -/
theorem pay5_apply (x0 : FVec Ideal S512x256 .f32) (x1 : FVec Ideal S512x1024 .f32) (w : FVec Ideal S1024x256 .bf16)
    (u : FVec Ideal S1024x1024 .bf16) (bi bh : FVec Ideal S1x1024 .f32) (p : Fin 512) (q : Fin 1024) :
    k0_pay5 (F := Ideal) x0 x1 w u bi bh (ix2 p q) = bpre x0 x1 w u bi bh p q := by
  unfold k0_pay5
  show (addf (matmul dot_S512x256_S1024x256_S512x1024_1_1_0_0_n_n none (k0_pay3 (F := Ideal) x0)
            (shapeCast S1024x256 w shapeCasts_S1024x256_S1024x256) (constant (F := Ideal) S512x1024 .f32 0x00000000#32))
         (matmul dot_S512x1024_S1024x1024_S512x1024_1_1_0_0_n_n none (k0_pay4 (F := Ideal) x1)
            (shapeCast S1024x1024 u shapeCasts_S1024x1024_S1024x1024) (constant (F := Ideal) S512x1024 .f32 0x00000000#32)) (ix2 p q)
      + broadcastTo S512x1024 (shapeCast S1x1024 bi shapeCasts_S1x1024_S1x1024) broadcasts_S1x1024_S512x1024 (ix2 p q))
      + broadcastTo S512x1024 (shapeCast S1x1024 bh shapeCasts_S1x1024_S1x1024) broadcasts_S1x1024_S512x1024 (ix2 p q) = _
  rw [proj_apply, bias_apply, bias_apply]
  rfl

/-- The second gate's two products, which the body adds before its biases. -/
theorem pay7_apply (x0 : FVec Ideal S512x256 .f32) (x1 : FVec Ideal S512x1024 .f32) (w : FVec Ideal S1024x256 .bf16)
    (u : FVec Ideal S1024x1024 .bf16) (p : Fin 512) (q : Fin 1024) :
    k0_pay7 (F := Ideal) x0 x1 w u (ix2 p q) = (∑ e : Fin 256, x0 (ix2 p e) * w (ix2 q e)) + (∑ d : Fin 1024, x1 (ix2 p d) * u (ix2 q d)) := by
  unfold k0_pay7
  exact proj_apply x0 x1 w u p q

/-- The second gate's first bias slice spread over the rows. -/
theorem pay8_apply (b : FVec Ideal S1x1024 .f32) (p : Fin 512) (q : Fin 1024) :
    k0_pay8 (F := Ideal) b (ix2 p q) = b (ix2 (0 : Fin 1) q) := by
  unfold k0_pay8
  exact bias_apply b p q

/-- The second gate's second bias slice, before it is spread. -/
theorem pay6_eq (b : FVec Ideal S1x1024 .f32) : k0_pay6 (F := Ideal) b = b := by
  unfold k0_pay6
  exact shapeCast_self b _

end Cert.KernelIdeal.Block

end
-- ==== Proof.PayCell.lean ====
/-
  The body of the kernel at one grid point, read entry by entry at the ideal values: the new cell state and the new
  hidden state of a block.

  With pre_k(p, q) the pre-activation of gate k (input, forget, cell, output) at entry (p, q) of the block,
    c'(p, q) = σ(pre_forget) · c(p, q) + σ(pre_input) · tanh(pre_cell),   h'(p, q) = σ(pre_output) · tanh(c'(p, q)).
  The body computes the input gate in one piece, the forget gate's products and biases in separate pieces joined
  later, and the cell and output gates inside the pieces that use them; each is the same function of its own
  weight rows and bias slices.
-/
import proofs.«158258_j56341380989616_1_alg».proof.Proof.PayGates

noncomputable section

open Idealize.ShloMosaic Idealize.ShloMosaic.ValueIdx Cert.KernelIdeal Cert.KernelIdeal.Gen
open scoped BigOperators

namespace Cert.KernelIdeal.Block

/-- The two products of one gate added, from blocks already in the narrower format. -/
theorem proj_apply' (a : FVec Ideal S512x256 .bf16) (b : FVec Ideal S512x1024 .bf16) (w : FVec Ideal S1024x256 .bf16)
    (u : FVec Ideal S1024x1024 .bf16) (p : Fin 512) (q : Fin 1024) :
    addf (matmul dot_S512x256_S1024x256_S512x1024_1_1_0_0_n_n none a
            (shapeCast S1024x256 w shapeCasts_S1024x256_S1024x256) (constant (F := Ideal) S512x1024 .f32 0x00000000#32))
         (matmul dot_S512x1024_S1024x1024_S512x1024_1_1_0_0_n_n none b
            (shapeCast S1024x1024 u shapeCasts_S1024x1024_S1024x1024) (constant (F := Ideal) S512x1024 .f32 0x00000000#32)) (ix2 p q)
      = (∑ e : Fin 256, a (ix2 p e) * w (ix2 q e)) + (∑ d : Fin 1024, b (ix2 p d) * u (ix2 q d)) := by
  rw [shapeCast_self, shapeCast_self]
  show matmul dot_S512x256_S1024x256_S512x1024_1_1_0_0_n_n none a w (constant (F := Ideal) S512x1024 .f32 0x00000000#32) (ix2 p q)
      + matmul dot_S512x1024_S1024x1024_S512x1024_1_1_0_0_n_n none b u (constant (F := Ideal) S512x1024 .f32 0x00000000#32) (ix2 p q) = _
  rw [mm_x, mm_h]

/-- The new cell state at entry (p, q) of a block. -/
def bcnew (x : BMat 512 256) (h c : BMat 512 1024)
    (wi0 : BMat 1024 256) (wh0 : BMat 1024 1024) (bi0 bh0 : BMat 1 1024)
    (wi1 : BMat 1024 256) (wh1 : BMat 1024 1024) (bi1 bh1 : BMat 1 1024)
    (wi2 : BMat 1024 256) (wh2 : BMat 1024 1024) (bi2 bh2 : BMat 1 1024) (p : Fin 512) (q : Fin 1024) : EReal :=
  Ideal.logistic (bpre x h wi1 wh1 bi1 bh1 p q) * c (ix2 p q)
    + Ideal.logistic (bpre x h wi0 wh0 bi0 bh0 p q) * Ideal.tanh (bpre x h wi2 wh2 bi2 bh2 p q)

/-- The new hidden state at entry (p, q) of a block. -/
def bhnew (x : BMat 512 256) (h c : BMat 512 1024)
    (wi0 : BMat 1024 256) (wh0 : BMat 1024 1024) (bi0 bh0 : BMat 1 1024)
    (wi1 : BMat 1024 256) (wh1 : BMat 1024 1024) (bi1 bh1 : BMat 1 1024)
    (wi2 : BMat 1024 256) (wh2 : BMat 1024 1024) (bi2 bh2 : BMat 1 1024)
    (wi3 : BMat 1024 256) (wh3 : BMat 1024 1024) (bi3 bh3 : BMat 1 1024) (p : Fin 512) (q : Fin 1024) : EReal :=
  Ideal.logistic (bpre x h wi3 wh3 bi3 bh3 p q)
    * Ideal.tanh (bcnew x h c wi0 wh0 bi0 bh0 wi1 wh1 bi1 bh1 wi2 wh2 bi2 bh2 p q)

/-- The piece that joins the gates into the new cell state, from the pieces computed before it. -/
theorem pay9_apply (v2 : FVec Ideal S512x256 .bf16) (v4 : FVec Ideal S512x1024 .bf16) (v5 : FVec Ideal S512x1024 .f32)
    (v20 : FVec Ideal S512x1024 .f32) (v28 : FVec Ideal S1x1024 .f32) (v31 v32 : FVec Ideal S512x1024 .f32)
    (v36 : FVec Ideal S1024x256 .bf16) (v38 : FVec Ideal S1024x1024 .bf16) (v40 v42 : FVec Ideal S1x1024 .f32)
    (p : Fin 512) (q : Fin 1024) :
    k0_pay9 (F := Ideal) v2 v4 v5 v20 v28 v31 v32 v36 v38 v40 v42 (ix2 p q)
      = Ideal.logistic ((v31 (ix2 p q) + v32 (ix2 p q)) + v28 (ix2 (0 : Fin 1) q)) * v5 (ix2 p q)
        + Ideal.logistic (v20 (ix2 p q))
          * Ideal.tanh ((((∑ e : Fin 256, v2 (ix2 p e) * v36 (ix2 q e)) + (∑ d : Fin 1024, v4 (ix2 p d) * v38 (ix2 q d)))
              + v40 (ix2 (0 : Fin 1) q)) + v42 (ix2 (0 : Fin 1) q)) := by
  unfold k0_pay9
  show Ideal.logistic ((v31 (ix2 p q) + v32 (ix2 p q)) + broadcastTo S512x1024 v28 broadcasts_S1x1024_S512x1024 (ix2 p q)) * v5 (ix2 p q)
        + Ideal.logistic (v20 (ix2 p q))
          * Ideal.tanh ((addf (matmul dot_S512x256_S1024x256_S512x1024_1_1_0_0_n_n none v2
                (shapeCast S1024x256 v36 shapeCasts_S1024x256_S1024x256) (constant (F := Ideal) S512x1024 .f32 0x00000000#32))
              (matmul dot_S512x1024_S1024x1024_S512x1024_1_1_0_0_n_n none v4
                (shapeCast S1024x1024 v38 shapeCasts_S1024x1024_S1024x1024) (constant (F := Ideal) S512x1024 .f32 0x00000000#32)) (ix2 p q)
              + broadcastTo S512x1024 (shapeCast S1x1024 v40 shapeCasts_S1x1024_S1x1024) broadcasts_S1x1024_S512x1024 (ix2 p q))
              + broadcastTo S512x1024 (shapeCast S1x1024 v42 shapeCasts_S1x1024_S1x1024) broadcasts_S1x1024_S512x1024 (ix2 p q)) = _
  rw [proj_apply', bias_apply, bias_apply, broadcastTo_1b_ab_apply v28 broadcasts_S1x1024_S512x1024 p q]

/-- The output gate, squashed. -/
theorem pay10_apply (v2 : FVec Ideal S512x256 .bf16) (v4 : FVec Ideal S512x1024 .bf16) (w : FVec Ideal S1024x256 .bf16)
    (u : FVec Ideal S1024x1024 .bf16) (bi bh : FVec Ideal S1x1024 .f32) (p : Fin 512) (q : Fin 1024) :
    k0_pay10 (F := Ideal) v2 v4 w u bi bh (ix2 p q) = Ideal.logistic (bpre v2 v4 w u bi bh p q) := by
  unfold k0_pay10
  show Ideal.logistic ((addf (matmul dot_S512x256_S1024x256_S512x1024_1_1_0_0_n_n none v2
                (shapeCast S1024x256 w shapeCasts_S1024x256_S1024x256) (constant (F := Ideal) S512x1024 .f32 0x00000000#32))
              (matmul dot_S512x1024_S1024x1024_S512x1024_1_1_0_0_n_n none v4
                (shapeCast S1024x1024 u shapeCasts_S1024x1024_S1024x1024) (constant (F := Ideal) S512x1024 .f32 0x00000000#32)) (ix2 p q)
              + broadcastTo S512x1024 (shapeCast S1x1024 bi shapeCasts_S1x1024_S1x1024) broadcasts_S1x1024_S512x1024 (ix2 p q))
              + broadcastTo S512x1024 (shapeCast S1x1024 bh shapeCasts_S1x1024_S1x1024) broadcasts_S1x1024_S512x1024 (ix2 p q)) = _
  rw [proj_apply', bias_apply, bias_apply]
  rfl

/-- THE NEW CELL STATE of a block, as the body assembles it from the loaded blocks. -/
theorem cell_apply (x0 : FVec Ideal S512x256 .f32) (x1 c : FVec Ideal S512x1024 .f32)
    (w0 : FVec Ideal S1024x256 .bf16) (u0 : FVec Ideal S1024x1024 .bf16) (bi0 bh0 : FVec Ideal S1x1024 .f32)
    (w1 : FVec Ideal S1024x256 .bf16) (u1 : FVec Ideal S1024x1024 .bf16) (bi1 bh1 : FVec Ideal S1x1024 .f32)
    (w2 : FVec Ideal S1024x256 .bf16) (u2 : FVec Ideal S1024x1024 .bf16) (bi2 bh2 : FVec Ideal S1x1024 .f32)
    (p : Fin 512) (q : Fin 1024) :
    k0_pay9 (F := Ideal) (k0_pay3 (F := Ideal) x0) (k0_pay4 (F := Ideal) x1) c (k0_pay5 (F := Ideal) x0 x1 w0 u0 bi0 bh0) (k0_pay6 (F := Ideal) bh1) (k0_pay7 (F := Ideal) x0 x1 w1 u1) (k0_pay8 (F := Ideal) bi1)
        w2 u2 bi2 bh2 (ix2 p q)
      = bcnew x0 x1 c w0 u0 bi0 bh0 w1 u1 bi1 bh1 w2 u2 bi2 bh2 p q := by
  rw [pay9_apply, pay7_apply, pay8_apply, pay6_eq, pay5_apply]
  simp only [pay3_apply, pay4_apply]
  rfl

/-- THE NEW HIDDEN STATE of a block, as the body assembles it from the loaded blocks. -/
theorem hidden_apply (x0 : FVec Ideal S512x256 .f32) (x1 c : FVec Ideal S512x1024 .f32)
    (w0 : FVec Ideal S1024x256 .bf16) (u0 : FVec Ideal S1024x1024 .bf16) (bi0 bh0 : FVec Ideal S1x1024 .f32)
    (w1 : FVec Ideal S1024x256 .bf16) (u1 : FVec Ideal S1024x1024 .bf16) (bi1 bh1 : FVec Ideal S1x1024 .f32)
    (w2 : FVec Ideal S1024x256 .bf16) (u2 : FVec Ideal S1024x1024 .bf16) (bi2 bh2 : FVec Ideal S1x1024 .f32)
    (w3 : FVec Ideal S1024x256 .bf16) (u3 : FVec Ideal S1024x1024 .bf16) (bi3 bh3 : FVec Ideal S1x1024 .f32)
    (p : Fin 512) (q : Fin 1024) :
    k0_pay1 (F := Ideal) (k0_pay9 (F := Ideal) (k0_pay3 (F := Ideal) x0) (k0_pay4 (F := Ideal) x1) c (k0_pay5 (F := Ideal) x0 x1 w0 u0 bi0 bh0) (k0_pay6 (F := Ideal) bh1) (k0_pay7 (F := Ideal) x0 x1 w1 u1) (k0_pay8 (F := Ideal) bi1)
        w2 u2 bi2 bh2) (k0_pay10 (F := Ideal) (k0_pay3 (F := Ideal) x0) (k0_pay4 (F := Ideal) x1) w3 u3 bi3 bh3) (ix2 p q)
      = bhnew x0 x1 c w0 u0 bi0 bh0 w1 u1 bi1 bh1 w2 u2 bi2 bh2 w3 u3 bi3 bh3 p q := by
  show k0_pay10 (F := Ideal) (k0_pay3 (F := Ideal) x0) (k0_pay4 (F := Ideal) x1) w3 u3 bi3 bh3 (ix2 p q)
      * Ideal.tanh (k0_pay9 (F := Ideal) (k0_pay3 (F := Ideal) x0) (k0_pay4 (F := Ideal) x1) c (k0_pay5 (F := Ideal) x0 x1 w0 u0 bi0 bh0) (k0_pay6 (F := Ideal) bh1) (k0_pay7 (F := Ideal) x0 x1 w1 u1) (k0_pay8 (F := Ideal) bi1)
        w2 u2 bi2 bh2 (ix2 p q)) = _
  rw [cell_apply, pay10_apply]
  unfold bhnew bpre
  simp only [pay3_apply, pay4_apply]

end Cert.KernelIdeal.Block

end
-- ==== Proof.LibRowStats.lean ====
/-
  General reading lemmas for a row statistic of a rank-2 array at the ideal values: the sum and the maximum of an
  f32 array [a, b] over its LAST axis, read at a row, for any extents; and the 32-bit test "row offset + row = column"
  as an equation between natural numbers when nothing overflows.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibRowStats

/-- The reduced index (p) of a rank-2 shape [a, b] reduced over its last axis, with the coordinate `k` put back on that
    axis, is (p, k). -/
theorem lift_last {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A `vector.multi_reduction <add>` of an f32 array [a, b] over its last axis with accumulator 0, read at row `p` at the
    ideal values, is the sum over `k : Fin b` of the array at (p, k) — for any extents. -/
theorem add_last_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  show ∑ k : Fin b, src (h.lift (ix1 p) k) = _
  exact Finset.sum_congr rfl fun k _ => congrArg src (lift_last h p k)

/-- A `vector.multi_reduction <maximumf>` of an f32 array [a, b] over its last axis with the accumulator word of −∞, read
    at row `p` at the ideal values, is the running maximum from that word's value over `k : Fin b` of the array at (p, k)
    — for any extents. The word is left as it is printed. -/
theorem max_last_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src _ h hφ hacc (ix1 p)).trans ?_
  show (Finset.univ : Finset (Fin b)).fold max (Ideal.ofBits .f32 0xFF800000#32) (fun k => src (h.lift (ix1 p) k)) = _
  exact Finset.fold_congr fun k _ => congrArg src (lift_last h p k)

/-- The 32-bit words of `t · 128 + p` and of `j` are equal exactly when the numbers are, for a block number below 64, a
    row below 128 and a column below 8192: nothing wraps. -/
theorem diag_word (t p j : ℕ) (ht : t < 64) (hp : p < 128) (hj : j < 8192) :
    IntOp.cmpi .eq (IntOp.addi (Scalar.muli (BitVec.ofNat 32 t) 128#32) (BitVec.ofNat 32 p)) (BitVec.ofNat 32 j)
      = if t * 128 + p = j then 1#1 else 0#1 := by
  have e : IntOp.addi (Scalar.muli (BitVec.ofNat 32 t) 128#32) (BitVec.ofNat 32 p) = BitVec.ofNat 32 (t * 128 + p) := by
    apply BitVec.eq_of_toNat_eq
    simp only [IntOp.addi, Scalar.muli, IntOp.muli, BitVec.toNat_add, BitVec.toNat_mul, BitVec.toNat_ofNat]
    omega
  rw [e]
  by_cases hd : t * 128 + p = j
  · rw [if_pos hd, hd]; simp [IntOp.cmpi]
  · rw [if_neg hd]
    have hne : BitVec.ofNat 32 (t * 128 + p) ≠ BitVec.ofNat 32 j := by
      intro hh
      have := congrArg BitVec.toNat hh
      simp only [BitVec.toNat_ofNat] at this
      omega
    have hb : (BitVec.ofNat 32 (t * 128 + p) == BitVec.ofNat 32 j) = false := beq_eq_false_iff_ne.mpr hne
    show BitVec.ofBool (BitVec.ofNat 32 (t * 128 + p) == BitVec.ofNat 32 j) = 0#1
    rw [hb]; rfl

end Cert.LibRowStats

end
-- ==== Proof.LibHostRowStats.lean ====
/-
  General reading lemmas for the host's row statistics of a rank-2 array [a, b], at the ideal values, for any extents:
  a `stablehlo.reduce` with a maximum body over axis 1 from −∞ read at row p is the running maximum from ⊥ over
  k of the array at (p, k); a `stablehlo.reduce` with an add body over axis 1 read at row p is the initial value
  plus the sum over k of the array at (p, k). Also that the f32 word 0xFF800000 is ⊥.
-/
import Idealize.ShloMosaic.PureOps.Ideal
import Idealize.ShloMosaic.PureOps.Ideal.Laws
import Idealize.ShloMosaic.PureOps.Reduce
import Idealize.ShloMosaic.Lib.ValueIdx

noncomputable section

open Idealize.ShloMosaic Idealize.ShloMosaic.ValueIdx

namespace Cert.LibHostRowStats

/-- The f32 word `0xFF800000` denotes −∞, the least extended real. -/
theorem negInf_f32 : Ideal.ofBits .f32 0xFF800000#32 = (⊥ : EReal) := by
  simp [Ideal.ofBits, Ideal.ieee]

/-- The index of [a, b] that drops to row p with k inserted on axis 1 is (p, k). -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The host's maximum of each row from −∞, read at row p. -/
theorem hostMax_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x (constant (F := Ideal) ⟨0, ![]⟩ .f32 0xFF800000#32) h' hu (ix1 p)
      = (Finset.univ : Finset (Fin b)).fold max ⊥ (fun k => x (ix2 p k)) := by
  rw [Host.reduce_eq_fold_single FloatOps.maximumf x _ h' h hu]
  show (Finset.univ : Finset (Fin b)).fold max (Ideal.ofBits .f32 0xFF800000#32) (fun k => x (h.lift (ix1 p) k)) = _
  rw [negInf_f32]
  exact Finset.fold_congr fun k _ => congrArg x (lift_row h p k)

/-- The host's sum of each row from an initial value, read at row p. -/
theorem hostSum_row {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  exact congrArg (_ + ·) (Finset.sum_congr rfl fun k _ => congrArg x (lift_row h p k))

end Cert.LibHostRowStats

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.PaySoftmax.lean ====
/-
  The body of the kernel at one grid point, read entry by entry at the ideal values: the class probabilities of a
  block of 512 rows.

  From a block of scores s (512 × 32) the body takes each row's largest score M(p) (the running maximum from −∞
  over the 32 classes, taken once more against −∞, kept as a column and spread back over the row), subtracts it,
  exponentiates, sums each row (from 0, again kept as a column and spread back), and divides:
    softmax(p, v) = exp(s(p,v) − M(p)) / Σ_v' exp(s(p,v') − M(p)).
  The scores themselves are the new cell state's block times the 32 rows of W_fc, contracting the last axis of
  both, plus the bias row spread over the 512 rows.
-/
import proofs.«158258_j56341380989616_1_alg».proof.Proof.Gen.KernelIdeal.Skeleton
import proofs.«158258_j56341380989616_1_alg».proof.Proof.LibMatmulRows
import proofs.«158258_j56341380989616_1_alg».proof.Proof.LibRowStats
import proofs.«158258_j56341380989616_1_alg».proof.Proof.LibHostRowStats
import proofs.«158258_j56341380989616_1_alg».proof.Proof.LibKeepdimsCol
import Idealize.ShloMosaic.Lib.ValueLayout
import Idealize.ShloMosaic.Lib.Pipeline.Value

noncomputable section

open Idealize.ShloMosaic Idealize.ShloMosaic.ValueIdx Cert.KernelIdeal Cert.KernelIdeal.Gen
open scoped BigOperators

namespace Cert.KernelIdeal.Block

/-- An a × b block of extended reals. -/
abbrev BMatS (a b : ℕ) : Type := (⟨2, ![a, b]⟩ : Shape).Idx → EReal

/-- The largest score of row p of a block of scores. -/
def bm (s : FVec Ideal S512x32 .f32) (p : Fin 512) : EReal :=
  max ⊥ ((Finset.univ : Finset (Fin 32)).fold max ⊥ fun v => s (ix2 p v))

/-- Each row's largest score, spread back over the row, as the body computes it. -/
def rowMaxVec (s : FVec Ideal S512x32 .f32) : FVec Ideal S512x32 .f32 :=
  broadcastTo S512x32
    (shapeCast S512x1
      (maximumf (broadcast S512 (Scalar.ofBits (F := Ideal) .f32 0xFF800000#32))
        (multiReduction .maximumf [1] S512 s 0xFF800000#32 reduces_S512x32_S512 (.inl rfl) rfl))
      shapeCasts_S512_S512x1)
    broadcasts_S512x1_S512x32

/-- Each row's sum, spread back over the row, as the body computes it. -/
def rowSumVec (e : FVec Ideal S512x32 .f32) : FVec Ideal S512x32 .f32 :=
  broadcastTo S512x32
    (shapeCast S512x1 (multiReduction .add [1] S512 e 0x00000000#32 reduces_S512x32_S512 (.inl rfl) rfl) shapeCasts_S512_S512x1)
    broadcasts_S512x1_S512x32

theorem rowMaxVec_apply (s : FVec Ideal S512x32 .f32) (p : Fin 512) (v : Fin 32) : rowMaxVec s (ix2 p v) = bm s p := by
  unfold rowMaxVec
  refine (Cert.LibKeepdimsCol.broadcastTo_a1_ab_apply _ broadcasts_S512x1_S512x32 p v).trans ?_
  refine (Cert.LibKeepdimsCol.shapeCast_a_a1_apply _ shapeCasts_S512_S512x1 p (0 : Fin 1)).trans ?_
  show max (Ideal.ofBits .f32 0xFF800000#32)
      (multiReduction .maximumf [1] S512 s 0xFF800000#32 reduces_S512x32_S512 (.inl rfl) rfl (ix1 p)) = _
  rw [Cert.LibRowStats.max_last_apply s reduces_S512x32_S512 (.inl rfl) rfl p, Cert.LibHostRowStats.negInf_f32]
  rfl

theorem rowSumVec_apply (e : FVec Ideal S512x32 .f32) (p : Fin 512) (v : Fin 32) :
    rowSumVec e (ix2 p v) = ∑ k : Fin 32, e (ix2 p k) := by
  unfold rowSumVec
  refine (Cert.LibKeepdimsCol.broadcastTo_a1_ab_apply _ broadcasts_S512x1_S512x32 p v).trans ?_
  refine (Cert.LibKeepdimsCol.shapeCast_a_a1_apply _ shapeCasts_S512_S512x1 p (0 : Fin 1)).trans ?_
  exact Cert.LibRowStats.add_last_apply e reduces_S512x32_S512 (.inl rfl) rfl p

/-- The body's softmax of a block of scores. -/
def smx (s : FVec Ideal S512x32 .f32) : FVec Ideal S512x32 .f32 :=
  divf (exp (subf s (rowMaxVec s))) (rowSumVec (exp (subf s (rowMaxVec s))))

theorem smx_apply (s : FVec Ideal S512x32 .f32) (p : Fin 512) (v : Fin 32) :
    smx s (ix2 p v) = Ideal.div (Ideal.exp (s (ix2 p v) - bm s p)) (∑ v' : Fin 32, Ideal.exp (s (ix2 p v') - bm s p)) := by
  show Ideal.div (Ideal.exp (s (ix2 p v) - rowMaxVec s (ix2 p v))) (rowSumVec (exp (subf s (rowMaxVec s))) (ix2 p v)) = _
  rw [rowSumVec_apply, rowMaxVec_apply]
  refine congrArg (Ideal.div _) (Finset.sum_congr rfl fun v' _ => ?_)
  show Ideal.exp (s (ix2 p v') - rowMaxVec s (ix2 p v')) = _
  rw [rowMaxVec_apply]

/-- The block of scores as the body computes it from the new cell state's block. -/
def scores (cN : FVec Ideal S512x1024 .f32) (w : FVec Ideal S32x1024 .bf16) (b : FVec Ideal S1x32 .f32) : FVec Ideal S512x32 .f32 :=
  addf (matmul dot_S512x1024_S32x1024_S512x32_1_1_0_0_n_n none (truncf .bf16 cN bitsLt_bf16_f32)
          (shapeCast S32x1024 w shapeCasts_S32x1024_S32x1024) (constant (F := Ideal) S512x32 .f32 0x00000000#32))
       (broadcastTo S512x32 (shapeCast S1x32 b shapeCasts_S1x32_S1x32) broadcasts_S1x32_S512x32)

/-- The product of the new cell state's block with the 32 rows of W_fc, entry (p, v). -/
theorem mm_fc (A : FVec Ideal S512x1024 .bf16) (B : FVec Ideal S32x1024 .bf16) (p : Fin 512) (v : Fin 32) :
    matmul dot_S512x1024_S32x1024_S512x32_1_1_0_0_n_n none A B (constant (F := Ideal) S512x32 .f32 0x00000000#32) (ix2 p v)
      = ∑ d : Fin 1024, A (ix2 p d) * B (ix2 v d) :=
  Cert.LibMatmulRows.matmul_rows_apply dot_S512x1024_S32x1024_S512x32_1_1_0_0_n_n.wf none A B p v

/-- Score (p, v) of a block: the new cell state's row p against row v of W_fc, plus the bias. -/
def blogit (cN : BMatS 512 1024) (w : BMatS 32 1024) (b : BMatS 1 32) (p : Fin 512) (v : Fin 32) : EReal :=
  (∑ d : Fin 1024, cN (ix2 p d) * w (ix2 v d)) + b (ix2 (0 : Fin 1) v)

theorem scores_apply (cN : FVec Ideal S512x1024 .f32) (w : FVec Ideal S32x1024 .bf16) (b : FVec Ideal S1x32 .f32)
    (p : Fin 512) (v : Fin 32) : scores cN w b (ix2 p v) = blogit cN w b p v := by
  unfold scores
  rw [shapeCast_self, shapeCast_self]
  show matmul dot_S512x1024_S32x1024_S512x32_1_1_0_0_n_n none (truncf .bf16 cN bitsLt_bf16_f32) w
        (constant (F := Ideal) S512x32 .f32 0x00000000#32) (ix2 p v)
      + broadcastTo S512x32 b broadcasts_S1x32_S512x32 (ix2 p v) = _
  rw [mm_fc, broadcastTo_1b_ab_apply b broadcasts_S1x32_S512x32 p v]
  rfl

/-- The piece that turns the new cell state's block into class probabilities is the softmax of its scores. -/
theorem pay2_eq (cN : FVec Ideal S512x1024 .f32) (w : FVec Ideal S32x1024 .bf16) (b : FVec Ideal S1x32 .f32) :
    k0_pay2 (F := Ideal) cN w b = smx (scores cN w b) := by
  unfold k0_pay2 smx scores rowMaxVec rowSumVec
  rfl

/-- THE CLASS PROBABILITIES of a block, entry (p, v). -/
theorem pay2_apply (cN : FVec Ideal S512x1024 .f32) (w : FVec Ideal S32x1024 .bf16) (b : FVec Ideal S1x32 .f32)
    (p : Fin 512) (v : Fin 32) :
    k0_pay2 (F := Ideal) cN w b (ix2 p v)
      = Ideal.div (Ideal.exp (scores cN w b (ix2 p v) - bm (scores cN w b) p))
          (∑ v' : Fin 32, Ideal.exp (scores cN w b (ix2 p v') - bm (scores cN w b) p)) := by
  rw [pay2_eq]
  exact smx_apply (scores cN w b) p v

end Cert.KernelIdeal.Block

end
-- ==== Proof.Spec.lean ====
/-
  One step of an LSTM cell on a batch of 16384 rows, a linear read-out of the NEW CELL STATE into 32 classes and a
  softmax over the classes, written entry by entry on the extended reals.

  For batch row b and stacked gate row r (gate k's unit j sits at row 1024·k + j, in the order input, forget,
  cell, output) the pre-activation is  pre b r = (Σₑ x(b,e)·W_ih(r,e) + Σ_d h(b,d)·W_hh(r,d)) + b_ih(r) + b_hh(r).
  Then  c'(b,j) = σ(pre forget)·c(b,j) + σ(pre input)·tanh(pre cell),  h'(b,j) = σ(pre output)·tanh(c'(b,j)),
  logit(b,v) = Σ_d c'(b,d)·W_fc(v,d) + b_fc(v),  and the class probabilities are
  exp(logit − M) / Σ_v' exp(logit' − M) with M the largest logit of the row.
  Nothing here needs the entries to be finite: only commutativity and associativity of + are used to compare two
  orders of adding the four terms of a pre-activation.
-/
import Idealize.ShloMosaic.PureOps.Ideal
import Idealize.ShloMosaic.Lib.ValueIdx

noncomputable section

open Idealize.ShloMosaic Idealize.ShloMosaic.ValueIdx
open scoped BigOperators

namespace Cert.Lstm

/-- An a × b array of extended reals. -/
abbrev Mat (a b : ℕ) : Type := (⟨2, ![a, b]⟩ : Shape).Idx → EReal
/-- A vector of a extended reals. -/
abbrev Row (a : ℕ) : Type := (⟨1, ![a]⟩ : Shape).Idx → EReal

/-- Row 1024·k + j of the stacked gate parameters: unit j of gate k. -/
abbrev grow (k : Fin 4) (j : Fin 1024) : Fin 4096 := ⟨1024 * k.val + j.val, by have := k.isLt; have := j.isLt; omega⟩

section
variable (X : Mat 16384 256) (H C : Mat 16384 1024) (Wih : Mat 4096 256) (Whh : Mat 4096 1024) (bih bhh : Row 4096)
  (Wfc : Mat 32 1024) (bfc : Row 32)

/-- The pre-activation of stacked gate row r for batch row b. -/
def pre (b : Fin 16384) (r : Fin 4096) : EReal :=
  ((∑ e : Fin 256, X (ix2 b e) * Wih (ix2 r e)) + (∑ d : Fin 1024, H (ix2 b d) * Whh (ix2 r d))) + bih (ix1 r) + bhh (ix1 r)

/-- The new cell state. -/
def cnew (b : Fin 16384) (j : Fin 1024) : EReal :=
  Ideal.logistic (pre X H Wih Whh bih bhh b (grow 1 j)) * C (ix2 b j)
    + Ideal.logistic (pre X H Wih Whh bih bhh b (grow 0 j)) * Ideal.tanh (pre X H Wih Whh bih bhh b (grow 2 j))

/-- The new hidden state. -/
def hnew (b : Fin 16384) (j : Fin 1024) : EReal :=
  Ideal.logistic (pre X H Wih Whh bih bhh b (grow 3 j)) * Ideal.tanh (cnew X H C Wih Whh bih bhh b j)

/-- The class scores: the read-out of the new cell state. -/
def logit (b : Fin 16384) (v : Fin 32) : EReal :=
  (∑ d : Fin 1024, cnew X H C Wih Whh bih bhh b d * Wfc (ix2 v d)) + bfc (ix1 v)

/-- The largest class score of a row (the running maximum from −∞, taken once more against −∞). -/
def rowmax (b : Fin 16384) : EReal :=
  max ⊥ ((Finset.univ : Finset (Fin 32)).fold max ⊥ fun v => logit X H C Wih Whh bih bhh Wfc bfc b v)

/-- The class probabilities. -/
def prob (b : Fin 16384) (v : Fin 32) : EReal :=
  Ideal.div (Ideal.exp (logit X H C Wih Whh bih bhh Wfc bfc b v - rowmax X H C Wih Whh bih bhh Wfc bfc b))
    (∑ v' : Fin 32, Ideal.exp (logit X H C Wih Whh bih bhh Wfc bfc b v' - rowmax X H C Wih Whh bih bhh Wfc bfc b))

/-- The three results as whole arrays. -/
def Gc : Mat 16384 1024 := fun i => cnew X H C Wih Whh bih bhh (i 0) (i 1)
def Gh : Mat 16384 1024 := fun i => hnew X H C Wih Whh bih bhh (i 0) (i 1)
def Gp : Mat 16384 32 := fun i => prob X H C Wih Whh bih bhh Wfc bfc (i 0) (i 1)

theorem Gc_apply (b : Fin 16384) (j : Fin 1024) : Gc X H C Wih Whh bih bhh (ix2 b j) = cnew X H C Wih Whh bih bhh b j := rfl
theorem Gh_apply (b : Fin 16384) (j : Fin 1024) : Gh X H C Wih Whh bih bhh (ix2 b j) = hnew X H C Wih Whh bih bhh b j := rfl
theorem Gp_apply (b : Fin 16384) (v : Fin 32) :
    Gp X H C Wih Whh bih bhh Wfc bfc (ix2 b v) = prob X H C Wih Whh bih bhh Wfc bfc b v := rfl

end

/-- Adding the first bias before or after the hidden state's projection gives the same pre-activation: + is
    commutative and associative on the extended reals, infinities included. -/
theorem add_bias_order (a h p q : EReal) : ((a + p) + h) + q = ((a + h) + p) + q := by
  rw [add_right_comm a p h]

end Cert.Lstm

end
-- ==== Proof.BlockOfArray.lean ====
/-
  A block of the batch against the whole batch.

  Grid point t handles batch rows 512·t … 512·t + 511; gate k uses rows 1024·k … 1024·k + 1023 of the stacked
  weights and biases. If a block's entries are the arrays' entries at those rows, then every quantity the body
  computes for entry (p, ·) of the block is the whole-batch quantity for batch row 512·t + p: the pre-activations,
  the new cell state, the new hidden state, the class scores, their row maximum and the class probabilities.
  Each is a rewriting of the arrays' entries under the sums; no arithmetic on the extended reals is involved.
-/
import proofs.«158258_j56341380989616_1_alg».proof.Proof.PayCell
import proofs.«158258_j56341380989616_1_alg».proof.Proof.PaySoftmax
import proofs.«158258_j56341380989616_1_alg».proof.Proof.Spec

noncomputable section

open Idealize.ShloMosaic Idealize.ShloMosaic.ValueIdx Cert.KernelIdeal Cert.KernelIdeal.Gen Cert.Lstm
open scoped BigOperators

namespace Cert.KernelIdeal.Block

/-- Batch row 512·t + p: row p of grid point t's block. -/
abbrev brow (t : ℕ) (ht : t < 32) (p : Fin 512) : Fin 16384 := ⟨512 * t + p.val, by have := p.isLt; omega⟩

section
variable (X : Mat 16384 256) (H C : Mat 16384 1024) (Wih : Mat 4096 256) (Whh : Mat 4096 1024) (bih bhh : Row 4096)
  (Wfc : Mat 32 1024) (bfc : Row 32) (t : ℕ) (ht : t < 32)

/-- One gate's pre-activation of a block is the whole-batch pre-activation at the block's rows and the gate's rows. -/
theorem bpre_eq (x : BMat 512 256) (h : BMat 512 1024)
    (hx : ∀ p e, x (ix2 p e) = X (ix2 (brow t ht p) e)) (hh : ∀ p d, h (ix2 p d) = H (ix2 (brow t ht p) d))
    (k : Fin 4) (wi : BMat 1024 256) (wh : BMat 1024 1024) (bi bh : BMat 1 1024)
    (hwi : ∀ q e, wi (ix2 q e) = Wih (ix2 (grow k q) e)) (hwh : ∀ q d, wh (ix2 q d) = Whh (ix2 (grow k q) d))
    (hbi : ∀ q, bi (ix2 (0 : Fin 1) q) = bih (ix1 (grow k q))) (hbh : ∀ q, bh (ix2 (0 : Fin 1) q) = bhh (ix1 (grow k q)))
    (p : Fin 512) (q : Fin 1024) :
    bpre x h wi wh bi bh p q = pre X H Wih Whh bih bhh (brow t ht p) (grow k q) := by
  unfold bpre pre
  simp only [hx, hh, hwi, hwh, hbi, hbh]

/-- The new cell state of a block is the whole-batch new cell state at the block's rows. -/
theorem bcnew_eq (x : BMat 512 256) (h c : BMat 512 1024)
    (hx : ∀ p e, x (ix2 p e) = X (ix2 (brow t ht p) e)) (hh : ∀ p d, h (ix2 p d) = H (ix2 (brow t ht p) d))
    (hc : ∀ p q, c (ix2 p q) = C (ix2 (brow t ht p) q))
    (wi0 : BMat 1024 256) (wh0 : BMat 1024 1024) (bi0 bh0 : BMat 1 1024)
    (wi1 : BMat 1024 256) (wh1 : BMat 1024 1024) (bi1 bh1 : BMat 1 1024)
    (wi2 : BMat 1024 256) (wh2 : BMat 1024 1024) (bi2 bh2 : BMat 1 1024)
    (hwi0 : ∀ q e, wi0 (ix2 q e) = Wih (ix2 (grow 0 q) e)) (hwh0 : ∀ q d, wh0 (ix2 q d) = Whh (ix2 (grow 0 q) d))
    (hbi0 : ∀ q, bi0 (ix2 (0 : Fin 1) q) = bih (ix1 (grow 0 q))) (hbh0 : ∀ q, bh0 (ix2 (0 : Fin 1) q) = bhh (ix1 (grow 0 q)))
    (hwi1 : ∀ q e, wi1 (ix2 q e) = Wih (ix2 (grow 1 q) e)) (hwh1 : ∀ q d, wh1 (ix2 q d) = Whh (ix2 (grow 1 q) d))
    (hbi1 : ∀ q, bi1 (ix2 (0 : Fin 1) q) = bih (ix1 (grow 1 q))) (hbh1 : ∀ q, bh1 (ix2 (0 : Fin 1) q) = bhh (ix1 (grow 1 q)))
    (hwi2 : ∀ q e, wi2 (ix2 q e) = Wih (ix2 (grow 2 q) e)) (hwh2 : ∀ q d, wh2 (ix2 q d) = Whh (ix2 (grow 2 q) d))
    (hbi2 : ∀ q, bi2 (ix2 (0 : Fin 1) q) = bih (ix1 (grow 2 q))) (hbh2 : ∀ q, bh2 (ix2 (0 : Fin 1) q) = bhh (ix1 (grow 2 q)))
    (p : Fin 512) (q : Fin 1024) :
    bcnew x h c wi0 wh0 bi0 bh0 wi1 wh1 bi1 bh1 wi2 wh2 bi2 bh2 p q = cnew X H C Wih Whh bih bhh (brow t ht p) q := by
  unfold bcnew cnew
  rw [bpre_eq X H Wih Whh bih bhh t ht x h hx hh 1 wi1 wh1 bi1 bh1 hwi1 hwh1 hbi1 hbh1,
    bpre_eq X H Wih Whh bih bhh t ht x h hx hh 0 wi0 wh0 bi0 bh0 hwi0 hwh0 hbi0 hbh0,
    bpre_eq X H Wih Whh bih bhh t ht x h hx hh 2 wi2 wh2 bi2 bh2 hwi2 hwh2 hbi2 hbh2, hc]

/-- The new hidden state of a block is the whole-batch new hidden state at the block's rows. -/
theorem bhnew_eq (x : BMat 512 256) (h c : BMat 512 1024)
    (hx : ∀ p e, x (ix2 p e) = X (ix2 (brow t ht p) e)) (hh : ∀ p d, h (ix2 p d) = H (ix2 (brow t ht p) d))
    (hc : ∀ p q, c (ix2 p q) = C (ix2 (brow t ht p) q))
    (wi0 : BMat 1024 256) (wh0 : BMat 1024 1024) (bi0 bh0 : BMat 1 1024)
    (wi1 : BMat 1024 256) (wh1 : BMat 1024 1024) (bi1 bh1 : BMat 1 1024)
    (wi2 : BMat 1024 256) (wh2 : BMat 1024 1024) (bi2 bh2 : BMat 1 1024)
    (wi3 : BMat 1024 256) (wh3 : BMat 1024 1024) (bi3 bh3 : BMat 1 1024)
    (hwi0 : ∀ q e, wi0 (ix2 q e) = Wih (ix2 (grow 0 q) e)) (hwh0 : ∀ q d, wh0 (ix2 q d) = Whh (ix2 (grow 0 q) d))
    (hbi0 : ∀ q, bi0 (ix2 (0 : Fin 1) q) = bih (ix1 (grow 0 q))) (hbh0 : ∀ q, bh0 (ix2 (0 : Fin 1) q) = bhh (ix1 (grow 0 q)))
    (hwi1 : ∀ q e, wi1 (ix2 q e) = Wih (ix2 (grow 1 q) e)) (hwh1 : ∀ q d, wh1 (ix2 q d) = Whh (ix2 (grow 1 q) d))
    (hbi1 : ∀ q, bi1 (ix2 (0 : Fin 1) q) = bih (ix1 (grow 1 q))) (hbh1 : ∀ q, bh1 (ix2 (0 : Fin 1) q) = bhh (ix1 (grow 1 q)))
    (hwi2 : ∀ q e, wi2 (ix2 q e) = Wih (ix2 (grow 2 q) e)) (hwh2 : ∀ q d, wh2 (ix2 q d) = Whh (ix2 (grow 2 q) d))
    (hbi2 : ∀ q, bi2 (ix2 (0 : Fin 1) q) = bih (ix1 (grow 2 q))) (hbh2 : ∀ q, bh2 (ix2 (0 : Fin 1) q) = bhh (ix1 (grow 2 q)))
    (hwi3 : ∀ q e, wi3 (ix2 q e) = Wih (ix2 (grow 3 q) e)) (hwh3 : ∀ q d, wh3 (ix2 q d) = Whh (ix2 (grow 3 q) d))
    (hbi3 : ∀ q, bi3 (ix2 (0 : Fin 1) q) = bih (ix1 (grow 3 q))) (hbh3 : ∀ q, bh3 (ix2 (0 : Fin 1) q) = bhh (ix1 (grow 3 q)))
    (p : Fin 512) (q : Fin 1024) :
    bhnew x h c wi0 wh0 bi0 bh0 wi1 wh1 bi1 bh1 wi2 wh2 bi2 bh2 wi3 wh3 bi3 bh3 p q
      = hnew X H C Wih Whh bih bhh (brow t ht p) q := by
  unfold bhnew hnew
  rw [bpre_eq X H Wih Whh bih bhh t ht x h hx hh 3 wi3 wh3 bi3 bh3 hwi3 hwh3 hbi3 hbh3,
    bcnew_eq X H C Wih Whh bih bhh t ht x h c hx hh hc wi0 wh0 bi0 bh0 wi1 wh1 bi1 bh1 wi2 wh2 bi2 bh2
      hwi0 hwh0 hbi0 hbh0 hwi1 hwh1 hbi1 hbh1 hwi2 hwh2 hbi2 hbh2]

/-- The class probabilities of a block are the whole-batch class probabilities at the block's rows, given that the
    block of the new cell state is the whole-batch new cell state at the block's rows. -/
theorem prob_eq (cN : FVec Ideal S512x1024 .f32) (w : FVec Ideal S32x1024 .bf16) (b : FVec Ideal S1x32 .f32)
    (hcN : ∀ p d, cN (ix2 p d) = cnew X H C Wih Whh bih bhh (brow t ht p) d)
    (hw : ∀ v d, w (ix2 v d) = Wfc (ix2 v d)) (hb : ∀ v, b (ix2 (0 : Fin 1) v) = bfc (ix1 v))
    (p : Fin 512) (v : Fin 32) :
    k0_pay2 (F := Ideal) cN w b (ix2 p v) = prob X H C Wih Whh bih bhh Wfc bfc (brow t ht p) v := by
  rw [pay2_apply]
  have hs : ∀ v', scores cN w b (ix2 p v') = logit X H C Wih Whh bih bhh Wfc bfc (brow t ht p) v' := fun v' => by
    rw [scores_apply]
    unfold blogit logit
    simp only [hcN, hw, hb]
  have hm : bm (scores cN w b) p = rowmax X H C Wih Whh bih bhh Wfc bfc (brow t ht p) := by
    unfold bm rowmax
    simp only [hs]
  unfold prob
  simp only [hs, hm]

end

end Cert.KernelIdeal.Block

end
-- ==== Proof.LibLdRows.lean ====
/-
  A load through a unit-stride rectangle of a rank-2 array, read at an index: the array at the rectangle's offsets
  plus the index.
-/
import Idealize.ShloMosaic.Lib.Pipeline.FrameBody

namespace Idealize.ShloMosaic

namespace View

/-- The load of rows o.. and columns q.. of X reads, at x, X at (o + x 0, q + x 1). -/
theorem ld_unit2 {Val : EltTy → Type} {e : EltTy} {d : Fin 2 → ℕ} {off size : Fin 2 → ℕ} {o q : ℕ} (inb : ∀ a : Fin 2, off a + size a ≤ d a)
    (X : (⟨2, d⟩ : Shape).Idx → Val e) (x : (Rect.unit (s := ⟨2, d⟩) off size inb).shape.Idx) (y : (⟨2, d⟩ : Shape).Idx)
    (hoff : off = ![o, q]) (hx0 : (y (0 : Fin 2)).val = o + (x (0 : Fin 2)).val) (hx1 : (y (1 : Fin 2)).val = q + (x (1 : Fin 2)).val) :
    View.ld X (Rect.unit (s := ⟨2, d⟩) off size inb) x = X y := by
  subst hoff
  show X ((Rect.unit (s := ⟨2, d⟩) ![o, q] size inb).toLoadRect.idx x) = X y
  refine congrArg X (funext fun a => Fin.ext ?_)
  match a with
  | ⟨0, _⟩ => show o + 1 * (x (0 : Fin 2)).val = (y (0 : Fin 2)).val; omega
  | ⟨1, _⟩ => show q + 1 * (x (1 : Fin 2)).val = (y (1 : Fin 2)).val; omega

end View

end Idealize.ShloMosaic
-- ==== Proof.Blocks.lean ====
/-
  From the blocks of the three results to the whole arrays.

  The grid has 32 points; point t's blocks of the input, the hidden state, the cell state and of the three results
  are rows 512·t … 512·t + 511 of their arrays (all columns), while the weights, the biases and the read-out
  parameters are staged whole at every point. So an entry (p, ·) of a block is the array's entry at row 512·t + p,
  a gate's slice of a staged weight array is the array's rows 1024·k …, and what point t writes back is block t of
  the whole-batch result. The 32 blocks tile each result array, so after the run each result array IS the
  whole-batch function of the arrays as the region found them.
-/
import proofs.«158258_j56341380989616_1_alg».proof.Proof.Gen.KernelIdeal.Value
import proofs.«158258_j56341380989616_1_alg».proof.Proof.BlockOfArray
import proofs.«158258_j56341380989616_1_alg».proof.Proof.LibLdRows
import Idealize.ShloMosaic.Lib.Pipeline.Value

set_option maxRecDepth 16384

noncomputable section

open Idealize.ShloMosaic Idealize.ShloMosaic.TcCoe Idealize.ShloMosaic.ValueIdx Idealize.SL.Sem
open Cert.KernelIdeal Cert.KernelIdeal.Gen Cert.KernelIdeal.Block Cert.Lstm
open Idealize.ShloMosaic.Pipeline (Dat)
open scoped BigOperators

namespace Cert.KernelIdeal.Blocks

variable (m : (ℓ : Loc nD τ sig) → Buf (Elt Ideal) ℓ) (c : Dev nD)

theorem hz : (![0, 0] : Fin 2 → Nat) = fun _ => 0 := funext fun a => by fin_cases a <;> rfl

/-- The printed index maps over the grid: the batch-blocked windows sit at block row t, the staged-whole windows at
    block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

/-- A grid point's number is below 32. -/
theorem t_lt (t : Fin cfg0.N) : t.val < 32 := lt_of_lt_of_eq t.isLt (N_0 : cfg0.N = 32)

/-- A one-row array read as a vector. -/
def rowOf {n : ℕ} (B : (⟨2, ![1, n]⟩ : Shape).Idx → EReal) : Row n := fun i => B (ix2 (0 : Fin 1) (i 0))

/-- Entry (p, e) of point t's block of the input is the input at row 512·t + p. -/
theorem iblk0_at (t : Fin cfg0.N) (p : Fin 512) (e : Fin 256) :
    (iblk m c 0 t : S512x256.Idx → EReal) (ix2 p e) = (V m c main_v14 : S16384x256.Idx → EReal) (ix2 (brow t.val (t_lt t) p) e) := by
  show (V m c main_v14 : S16384x256.Idx → EReal) (((cfg0.win 0).blk t).view.emb (ix2 p e)) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_0.index t (0 : Fin 2) * 512 + 1 * p.val = 512 * t.val + p.val; omega
  | ⟨1, _⟩ => show win0_0.index t (1 : Fin 2) * 256 + 1 * e.val = e.val; omega

/-- Entry (p, j) of point t's block of window 1's array is the array's entry at row 512·t + p. -/
theorem iblk1_at (t : Fin cfg0.N) (p : Fin 512) (j : Fin 1024) :
    (iblk m c 1 t : S512x1024.Idx → EReal) (ix2 p j) = (V m c main_arg2 : S16384x1024.Idx → EReal) (ix2 (brow t.val (t_lt t) p) j) := by
  show (V m c main_arg2 : S16384x1024.Idx → EReal) (((cfg0.win 1).blk t).view.emb (ix2 p j)) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_1.index t (0 : Fin 2) * 512 + 1 * p.val = 512 * t.val + p.val; omega
  | ⟨1, _⟩ => show win0_1.index t (1 : Fin 2) * 1024 + 1 * j.val = j.val; omega

/-- Entry (p, j) of point t's block of window 2's array is the array's entry at row 512·t + p. -/
theorem iblk2_at (t : Fin cfg0.N) (p : Fin 512) (j : Fin 1024) :
    (iblk m c 2 t : S512x1024.Idx → EReal) (ix2 p j) = (V m c main_arg3 : S16384x1024.Idx → EReal) (ix2 (brow t.val (t_lt t) p) j) := by
  show (V m c main_arg3 : S16384x1024.Idx → EReal) (((cfg0.win 2).blk t).view.emb (ix2 p j)) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_2.index t (0 : Fin 2) * 512 + 1 * p.val = 512 * t.val + p.val; omega
  | ⟨1, _⟩ => show win0_2.index t (1 : Fin 2) * 1024 + 1 * j.val = j.val; omega

/-- Window 3 is staged whole: its block at any point is its array. -/
theorem iblk3_eq (t : Fin cfg0.N) : (iblk m c 3 t : S4096x256.Idx → EReal) = (V m c main_v15 : S4096x256.Idx → EReal) := by
  funext j
  show (V m c main_v15 : S4096x256.Idx → EReal) (((cfg0.win 3).blk t).view.emb j) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_3.index t (0 : Fin 2) * 4096 + 1 * (j 0).val = (j 0).val; omega
  | ⟨1, _⟩ => show win0_3.index t (1 : Fin 2) * 256 + 1 * (j 1).val = (j 1).val; omega

/-- Window 4 is staged whole: its block at any point is its array. -/
theorem iblk4_eq (t : Fin cfg0.N) : (iblk m c 4 t : S4096x1024.Idx → EReal) = (V m c main_v16 : S4096x1024.Idx → EReal) := by
  funext j
  show (V m c main_v16 : S4096x1024.Idx → EReal) (((cfg0.win 4).blk t).view.emb j) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_4.index t (0 : Fin 2) * 4096 + 1 * (j 0).val = (j 0).val; omega
  | ⟨1, _⟩ => show win0_4.index t (1 : Fin 2) * 1024 + 1 * (j 1).val = (j 1).val; omega

/-- Window 5 is staged whole: its block at any point is its array. -/
theorem iblk5_eq (t : Fin cfg0.N) : (iblk m c 5 t : S1x4096.Idx → EReal) = (V m c main_v18 : S1x4096.Idx → EReal) := by
  funext j
  show (V m c main_v18 : S1x4096.Idx → EReal) (((cfg0.win 5).blk t).view.emb j) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_5.index t (0 : Fin 2) * 1 + 1 * (j 0).val = (j 0).val; omega
  | ⟨1, _⟩ => show win0_5.index t (1 : Fin 2) * 4096 + 1 * (j 1).val = (j 1).val; omega

/-- Window 6 is staged whole: its block at any point is its array. -/
theorem iblk6_eq (t : Fin cfg0.N) : (iblk m c 6 t : S1x4096.Idx → EReal) = (V m c main_v19 : S1x4096.Idx → EReal) := by
  funext j
  show (V m c main_v19 : S1x4096.Idx → EReal) (((cfg0.win 6).blk t).view.emb j) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_6.index t (0 : Fin 2) * 1 + 1 * (j 0).val = (j 0).val; omega
  | ⟨1, _⟩ => show win0_6.index t (1 : Fin 2) * 4096 + 1 * (j 1).val = (j 1).val; omega

/-- Window 7 is staged whole: its block at any point is its array. -/
theorem iblk7_eq (t : Fin cfg0.N) : (iblk m c 7 t : S32x1024.Idx → EReal) = (V m c main_v17 : S32x1024.Idx → EReal) := by
  funext j
  show (V m c main_v17 : S32x1024.Idx → EReal) (((cfg0.win 7).blk t).view.emb j) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_7.index t (0 : Fin 2) * 32 + 1 * (j 0).val = (j 0).val; omega
  | ⟨1, _⟩ => show win0_7.index t (1 : Fin 2) * 1024 + 1 * (j 1).val = (j 1).val; omega

/-- Window 8 is staged whole: its block at any point is its array. -/
theorem iblk8_eq (t : Fin cfg0.N) : (iblk m c 8 t : S1x32.Idx → EReal) = (V m c main_v20 : S1x32.Idx → EReal) := by
  funext j
  show (V m c main_v20 : S1x32.Idx → EReal) (((cfg0.win 8).blk t).view.emb j) = _
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_8.index t (0 : Fin 2) * 1 + 1 * (j 0).val = (j 0).val; omega
  | ⟨1, _⟩ => show win0_8.index t (1 : Fin 2) * 32 + 1 * (j 1).val = (j 1).val; omega

/-- Entry (p, j) of point t's block of result window 9 sits at row 512·t + p of the result array. -/
theorem emb9_at (t : Fin cfg0.N) (p : Fin 512) (j : Fin 32) :
    (((cfg0.win 9).blk t).view.emb (ix2 p j) : S16384x32.Idx) = ix2 (brow t.val (t_lt t) p) j := by
  refine funext fun a => Fin.ext ?_
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_9.index t (0 : Fin 2) * 512 + 1 * p.val = 512 * t.val + p.val; omega
  | ⟨1, _⟩ => show win0_9.index t (1 : Fin 2) * 32 + 1 * j.val = j.val; omega

/-- Entry (p, j) of point t's block of result window 10 sits at row 512·t + p of the result array. -/
theorem emb10_at (t : Fin cfg0.N) (p : Fin 512) (j : Fin 1024) :
    (((cfg0.win 10).blk t).view.emb (ix2 p j) : S16384x1024.Idx) = ix2 (brow t.val (t_lt t) p) j := by
  refine funext fun a => Fin.ext ?_
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_10.index t (0 : Fin 2) * 512 + 1 * p.val = 512 * t.val + p.val; omega
  | ⟨1, _⟩ => show win0_10.index t (1 : Fin 2) * 1024 + 1 * j.val = j.val; omega

/-- Entry (p, j) of point t's block of result window 11 sits at row 512·t + p of the result array. -/
theorem emb11_at (t : Fin cfg0.N) (p : Fin 512) (j : Fin 1024) :
    (((cfg0.win 11).blk t).view.emb (ix2 p j) : S16384x1024.Idx) = ix2 (brow t.val (t_lt t) p) j := by
  refine funext fun a => Fin.ext ?_
  obtain ⟨e0a, e0b, e1a, e1b, e2a, e2b, e3a, e3b, e4a, e4b, e5a, e5b, e6a, e6b, e7a, e7b, e8a, e8b, e9a, e9b, e10a, e10b, e11a, e11b⟩ := idx_facts t
  match a with
  | ⟨0, _⟩ => show win0_11.index t (0 : Fin 2) * 512 + 1 * p.val = 512 * t.val + p.val; omega
  | ⟨1, _⟩ => show win0_11.index t (1 : Fin 2) * 1024 + 1 * j.val = j.val; omega

/-- Gate k's rows of the staged W_ih: row q of the slice at offset 1024·k is row 1024·k + q of the array. -/
theorem wih_slice (t : Fin cfg0.N) (o : ℕ) (k : Fin 4) (ho : o = 1024 * k.val)
    (inb : ∀ a : Fin 2, (![o, 0] : Fin 2 → ℕ) a + S1024x256.size a ≤ S4096x256.size a) (q : Fin 1024) (e : Fin 256) :
    View.ld (iblk m c 3 t) (Rect.unit (s := S4096x256) ![o, 0] S1024x256.size inb) (ix2 q e)
      = (V m c main_v15 : S4096x256.Idx → EReal) (ix2 (grow k q) e) := by
  refine (View.ld_unit2 (Val := Elt Ideal) (e := .bf16) inb (iblk m c 3 t) (ix2 q e) (ix2 (grow k q) e) rfl ?_ ?_).trans ?_
  · show 1024 * k.val + q.val = o + q.val; omega
  · show e.val = 0 + e.val; omega
  · exact congrFun (iblk3_eq m c t) _

/-- Gate k's rows of the staged W_hh. -/
theorem whh_slice (t : Fin cfg0.N) (o : ℕ) (k : Fin 4) (ho : o = 1024 * k.val)
    (inb : ∀ a : Fin 2, (![o, 0] : Fin 2 → ℕ) a + S1024x1024.size a ≤ S4096x1024.size a) (q : Fin 1024) (d : Fin 1024) :
    View.ld (iblk m c 4 t) (Rect.unit (s := S4096x1024) ![o, 0] S1024x1024.size inb) (ix2 q d)
      = (V m c main_v16 : S4096x1024.Idx → EReal) (ix2 (grow k q) d) := by
  refine (View.ld_unit2 (Val := Elt Ideal) (e := .bf16) inb (iblk m c 4 t) (ix2 q d) (ix2 (grow k q) d) rfl ?_ ?_).trans ?_
  · show 1024 * k.val + q.val = o + q.val; omega
  · show d.val = 0 + d.val; omega
  · exact congrFun (iblk4_eq m c t) _

/-- Gate k's slice of the staged b_ih row. -/
theorem bih_slice (t : Fin cfg0.N) (o : ℕ) (k : Fin 4) (ho : o = 1024 * k.val)
    (inb : ∀ a : Fin 2, (![0, o] : Fin 2 → ℕ) a + S1x1024.size a ≤ S1x4096.size a) (q : Fin 1024) :
    View.ld (iblk m c 5 t) (Rect.unit (s := S1x4096) ![0, o] S1x1024.size inb) (ix2 (0 : Fin 1) q)
      = rowOf (V m c main_v18 : S1x4096.Idx → EReal) (ix1 (grow k q)) := by
  refine (View.ld_unit2 (Val := Elt Ideal) (e := .f32) inb (iblk m c 5 t) (ix2 (0 : Fin 1) q) (ix2 (0 : Fin 1) (grow k q)) rfl ?_ ?_).trans ?_
  · show 0 = 0 + 0; omega
  · show 1024 * k.val + q.val = o + q.val; omega
  · exact congrFun (iblk5_eq m c t) _

/-- Gate k's slice of the staged b_hh row. -/
theorem bhh_slice (t : Fin cfg0.N) (o : ℕ) (k : Fin 4) (ho : o = 1024 * k.val)
    (inb : ∀ a : Fin 2, (![0, o] : Fin 2 → ℕ) a + S1x1024.size a ≤ S1x4096.size a) (q : Fin 1024) :
    View.ld (iblk m c 6 t) (Rect.unit (s := S1x4096) ![0, o] S1x1024.size inb) (ix2 (0 : Fin 1) q)
      = rowOf (V m c main_v19 : S1x4096.Idx → EReal) (ix1 (grow k q)) := by
  refine (View.ld_unit2 (Val := Elt Ideal) (e := .f32) inb (iblk m c 6 t) (ix2 (0 : Fin 1) q) (ix2 (0 : Fin 1) (grow k q)) rfl ?_ ?_).trans ?_
  · show 0 = 0 + 0; omega
  · show 1024 * k.val + q.val = o + q.val; omega
  · exact congrFun (iblk6_eq m c t) _

/-! ## The arrays as the region finds them -/

/-- The looked-up input, the hidden state, the cell state, the two weight arrays, the two bias rows read as
    vectors, and the read-out parameters, as they stand when the region is entered. -/
abbrev aX : Mat 16384 256 := (V m c main_v14 : S16384x256.Idx → EReal)
abbrev aH : Mat 16384 1024 := (V m c main_arg2 : S16384x1024.Idx → EReal)
abbrev aC : Mat 16384 1024 := (V m c main_arg3 : S16384x1024.Idx → EReal)
abbrev aWih : Mat 4096 256 := (V m c main_v15 : S4096x256.Idx → EReal)
abbrev aWhh : Mat 4096 1024 := (V m c main_v16 : S4096x1024.Idx → EReal)
abbrev aBih : Row 4096 := rowOf (V m c main_v18 : S1x4096.Idx → EReal)
abbrev aBhh : Row 4096 := rowOf (V m c main_v19 : S1x4096.Idx → EReal)
abbrev aWfc : Mat 32 1024 := (V m c main_v17 : S32x1024.Idx → EReal)
abbrev aBfc : Row 32 := rowOf (V m c main_v20 : S1x32.Idx → EReal)

/-! ## What the body leaves, entry by entry -/

/-- The body's new-cell-state piece, from the staged blocks. -/
abbrev cellPiece (x0 : FVec Ideal S512x256 .f32) (x1 x2 : FVec Ideal S512x1024 .f32) (x3 : FVec Ideal S4096x256 .bf16) (x4 : FVec Ideal S4096x1024 .bf16) (x5 x6 : FVec Ideal S1x4096 .f32) : FVec Ideal S512x1024 .f32 :=
  k0_pay9 (F := Ideal) (k0_pay3 x0) (k0_pay4 x1) x2
    (k0_pay5 x0 x1 (View.ld x3 r0_2) (View.ld x4 r0_3) (View.ld x5 r0_4) (View.ld x6 r0_4)) (k0_pay6 (View.ld x6 r0_7))
    (k0_pay7 x0 x1 (View.ld x3 r0_5) (View.ld x4 r0_6)) (k0_pay8 (View.ld x5 r0_7))
    (View.ld x3 r0_8) (View.ld x4 r0_9) (View.ld x5 r0_10) (View.ld x6 r0_10)

/-- The body's output-gate piece, from the staged blocks. -/
abbrev gatePiece (x0 : FVec Ideal S512x256 .f32) (x1 x2 : FVec Ideal S512x1024 .f32) (x3 : FVec Ideal S4096x256 .bf16) (x4 : FVec Ideal S4096x1024 .bf16) (x5 x6 : FVec Ideal S1x4096 .f32) : FVec Ideal S512x1024 .f32 :=
  k0_pay10 (F := Ideal) (k0_pay3 x0) (k0_pay4 x1) (View.ld x3 r0_11) (View.ld x4 r0_12) (View.ld x5 r0_13) (View.ld x6 r0_13)

theorem out11_eq (x0 : FVec Ideal S512x256 .f32) (x1 x2 : FVec Ideal S512x1024 .f32) (x3 : FVec Ideal S4096x256 .bf16) (x4 : FVec Ideal S4096x1024 .bf16) (x5 x6 : FVec Ideal S1x4096 .f32) (x7 : FVec Ideal S32x1024 .bf16) (x8 : FVec Ideal S1x32 .f32) : out0_11 (F := Ideal) x0 x1 x2 x3 x4 x5 x6 x7 x8 = cellPiece x0 x1 x2 x3 x4 x5 x6 := by
  unfold out0_11
  rw [View.canon_unit_zero hz]
  simp only [View.ld_unit_zero (S := S512x256) hz, View.ld_unit_zero (S := S512x1024) hz]

theorem out10_eq (x0 : FVec Ideal S512x256 .f32) (x1 x2 : FVec Ideal S512x1024 .f32) (x3 : FVec Ideal S4096x256 .bf16) (x4 : FVec Ideal S4096x1024 .bf16) (x5 x6 : FVec Ideal S1x4096 .f32) (x7 : FVec Ideal S32x1024 .bf16) (x8 : FVec Ideal S1x32 .f32) : out0_10 (F := Ideal) x0 x1 x2 x3 x4 x5 x6 x7 x8
    = k0_pay1 (F := Ideal) (cellPiece x0 x1 x2 x3 x4 x5 x6) (gatePiece x0 x1 x2 x3 x4 x5 x6) := by
  unfold out0_10
  rw [View.canon_unit_zero hz]
  simp only [View.ld_unit_zero (S := S512x256) hz, View.ld_unit_zero (S := S512x1024) hz]

theorem out9_eq (x0 : FVec Ideal S512x256 .f32) (x1 x2 : FVec Ideal S512x1024 .f32) (x3 : FVec Ideal S4096x256 .bf16) (x4 : FVec Ideal S4096x1024 .bf16) (x5 x6 : FVec Ideal S1x4096 .f32) (x7 : FVec Ideal S32x1024 .bf16) (x8 : FVec Ideal S1x32 .f32) : out0_9 (F := Ideal) x0 x1 x2 x3 x4 x5 x6 x7 x8
    = k0_pay2 (F := Ideal) (cellPiece x0 x1 x2 x3 x4 x5 x6) x7 x8 := by
  unfold out0_9
  rw [View.canon_unit_zero hz]
  simp only [View.ld_unit_zero (S := S512x256) hz, View.ld_unit_zero (S := S512x1024) hz,
    View.ld_unit_zero (S := S32x1024) hz, View.ld_unit_zero (S := S1x32) hz]

/-- The new-cell-state piece at point t, entry (p, q), is the whole-batch new cell state at row 512·t + p. -/
theorem cellPiece_at (t : Fin cfg0.N) (p : Fin 512) (q : Fin 1024) :
    cellPiece (iblk m c 0 t) (iblk m c 1 t) (iblk m c 2 t) (iblk m c 3 t) (iblk m c 4 t) (iblk m c 5 t) (iblk m c 6 t) (ix2 p q)
      = cnew (aX m c) (aH m c) (aC m c) (aWih m c) (aWhh m c) (aBih m c) (aBhh m c) (brow t.val (t_lt t) p) q := by
  refine (cell_apply _ _ _ _ _ _ _ _ _ _ _ _ _ _ _ p q).trans ?_
  exact bcnew_eq (aX m c) (aH m c) (aC m c) (aWih m c) (aWhh m c) (aBih m c) (aBhh m c) t.val (t_lt t)
    (iblk m c 0 t) (iblk m c 1 t) (iblk m c 2 t) (iblk0_at m c t) (iblk1_at m c t) (iblk2_at m c t) _ _ _ _ _ _ _ _ _ _ _ _
    (wih_slice m c t 0 0 (by decide) _) (whh_slice m c t 0 0 (by decide) _) (bih_slice m c t 0 0 (by decide) _) (bhh_slice m c t 0 0 (by decide) _)
    (wih_slice m c t 1024 1 (by decide) _) (whh_slice m c t 1024 1 (by decide) _) (bih_slice m c t 1024 1 (by decide) _) (bhh_slice m c t 1024 1 (by decide) _)
    (wih_slice m c t 2048 2 (by decide) _) (whh_slice m c t 2048 2 (by decide) _) (bih_slice m c t 2048 2 (by decide) _) (bhh_slice m c t 2048 2 (by decide) _) p q

/-- The new-hidden-state piece at point t, entry (p, q), is the whole-batch new hidden state at row 512·t + p. -/
theorem hiddenPiece_at (t : Fin cfg0.N) (p : Fin 512) (q : Fin 1024) :
    k0_pay1 (F := Ideal) (cellPiece (iblk m c 0 t) (iblk m c 1 t) (iblk m c 2 t) (iblk m c 3 t) (iblk m c 4 t) (iblk m c 5 t) (iblk m c 6 t)) (gatePiece (iblk m c 0 t) (iblk m c 1 t) (iblk m c 2 t) (iblk m c 3 t) (iblk m c 4 t) (iblk m c 5 t) (iblk m c 6 t)) (ix2 p q)
      = hnew (aX m c) (aH m c) (aC m c) (aWih m c) (aWhh m c) (aBih m c) (aBhh m c) (brow t.val (t_lt t) p) q := by
  refine (hidden_apply _ _ _ _ _ _ _ _ _ _ _ _ _ _ _ _ _ _ _ p q).trans ?_
  exact bhnew_eq (aX m c) (aH m c) (aC m c) (aWih m c) (aWhh m c) (aBih m c) (aBhh m c) t.val (t_lt t)
    (iblk m c 0 t) (iblk m c 1 t) (iblk m c 2 t) (iblk0_at m c t) (iblk1_at m c t) (iblk2_at m c t) _ _ _ _ _ _ _ _ _ _ _ _ _ _ _ _
    (wih_slice m c t 0 0 (by decide) _) (whh_slice m c t 0 0 (by decide) _) (bih_slice m c t 0 0 (by decide) _) (bhh_slice m c t 0 0 (by decide) _)
    (wih_slice m c t 1024 1 (by decide) _) (whh_slice m c t 1024 1 (by decide) _) (bih_slice m c t 1024 1 (by decide) _) (bhh_slice m c t 1024 1 (by decide) _)
    (wih_slice m c t 2048 2 (by decide) _) (whh_slice m c t 2048 2 (by decide) _) (bih_slice m c t 2048 2 (by decide) _) (bhh_slice m c t 2048 2 (by decide) _)
    (wih_slice m c t 3072 3 (by decide) _) (whh_slice m c t 3072 3 (by decide) _) (bih_slice m c t 3072 3 (by decide) _) (bhh_slice m c t 3072 3 (by decide) _) p q

/-- The class-probability piece at point t, entry (p, v), is the whole-batch class probability at row 512·t + p. -/
theorem probPiece_at (t : Fin cfg0.N) (p : Fin 512) (v : Fin 32) :
    k0_pay2 (F := Ideal) (cellPiece (iblk m c 0 t) (iblk m c 1 t) (iblk m c 2 t) (iblk m c 3 t) (iblk m c 4 t) (iblk m c 5 t) (iblk m c 6 t)) (iblk m c 7 t) (iblk m c 8 t) (ix2 p v)
      = prob (aX m c) (aH m c) (aC m c) (aWih m c) (aWhh m c) (aBih m c) (aBhh m c) (aWfc m c) (aBfc m c) (brow t.val (t_lt t) p) v :=
  prob_eq (aX m c) (aH m c) (aC m c) (aWih m c) (aWhh m c) (aBih m c) (aBhh m c) (aWfc m c) (aBfc m c) t.val (t_lt t) (cellPiece (iblk m c 0 t) (iblk m c 1 t) (iblk m c 2 t) (iblk m c 3 t) (iblk m c 4 t) (iblk m c 5 t) (iblk m c 6 t)) (iblk m c 7 t) (iblk m c 8 t)
    (fun p d => cellPiece_at m c t p d) (fun v d => congrFun (iblk7_eq m c t) (ix2 v d))
    (fun v => congrFun (iblk8_eq m c t) (ix2 (0 : Fin 1) v)) p v

/-! ## What each point writes back -/

/-- Point t writes back block t of the whole-batch new cell state. -/
theorem flushed11_eq (t : Fin cfg0.N) :
    (dats m 0 c).flushed 11 t = ((cfg0.win 11).blk t).view.read (Elt Ideal) (Gc (aX m c) (aH m c) (aC m c) (aWih m c) (aWhh m c) (aBih m c) (aBhh m c)) := by
  rw [Cert.KernelIdeal.Value.flushed11 m c t]
  funext j
  obtain ⟨p, q, rfl⟩ : ∃ (p : Fin 512) (q : Fin 1024), j = ix2 p q := ⟨j 0, j 1, eq_ix2 j⟩
  show out0_11 (F := Ideal) (iblk m c 0 t) (iblk m c 1 t) (iblk m c 2 t) (iblk m c 3 t) (iblk m c 4 t) (iblk m c 5 t) (iblk m c 6 t) (iblk m c 7 t) (iblk m c 8 t) (ix2 p q) = Gc (aX m c) (aH m c) (aC m c) (aWih m c) (aWhh m c) (aBih m c) (aBhh m c) (((cfg0.win 11).blk t).view.emb (ix2 p q))
  rw [emb11_at t p q, out11_eq]
  exact cellPiece_at m c t p q

/-- Point t writes back block t of the whole-batch new hidden state. -/
theorem flushed10_eq (t : Fin cfg0.N) :
    (dats m 0 c).flushed 10 t = ((cfg0.win 10).blk t).view.read (Elt Ideal) (Gh (aX m c) (aH m c) (aC m c) (aWih m c) (aWhh m c) (aBih m c) (aBhh m c)) := by
  rw [Cert.KernelIdeal.Value.flushed10 m c t]
  funext j
  obtain ⟨p, q, rfl⟩ : ∃ (p : Fin 512) (q : Fin 1024), j = ix2 p q := ⟨j 0, j 1, eq_ix2 j⟩
  show out0_10 (F := Ideal) (iblk m c 0 t) (iblk m c 1 t) (iblk m c 2 t) (iblk m c 3 t) (iblk m c 4 t) (iblk m c 5 t) (iblk m c 6 t) (iblk m c 7 t) (iblk m c 8 t) (ix2 p q) = Gh (aX m c) (aH m c) (aC m c) (aWih m c) (aWhh m c) (aBih m c) (aBhh m c) (((cfg0.win 10).blk t).view.emb (ix2 p q))
  rw [emb10_at t p q, out10_eq]
  exact hiddenPiece_at m c t p q

/-- Point t writes back block t of the whole-batch class probabilities. -/
theorem flushed9_eq (t : Fin cfg0.N) :
    (dats m 0 c).flushed 9 t = ((cfg0.win 9).blk t).view.read (Elt Ideal) (Gp (aX m c) (aH m c) (aC m c) (aWih m c) (aWhh m c) (aBih m c) (aBhh m c) (aWfc m c) (aBfc m c)) := by
  rw [Cert.KernelIdeal.Value.flushed9 m c t]
  funext j
  obtain ⟨p, v, rfl⟩ : ∃ (p : Fin 512) (v : Fin 32), j = ix2 p v := ⟨j 0, j 1, eq_ix2 j⟩
  show out0_9 (F := Ideal) (iblk m c 0 t) (iblk m c 1 t) (iblk m c 2 t) (iblk m c 3 t) (iblk m c 4 t) (iblk m c 5 t) (iblk m c 6 t) (iblk m c 7 t) (iblk m c 8 t) (ix2 p v) = Gp (aX m c) (aH m c) (aC m c) (aWih m c) (aWhh m c) (aBih m c) (aBhh m c) (aWfc m c) (aBfc m c) (((cfg0.win 9).blk t).view.emb (ix2 p v))
  rw [emb9_at t p v, out9_eq]
  exact probPiece_at m c t p v

/-! ## The blocks tile the result arrays -/

/-- An index of result window 9's array is in point t's block iff each coordinate is in the block's range. -/
theorem mem_blk9 (t : Fin cfg0.N) (i : S16384x32.Idx) :
    i ∈ ((cfg0.win 9).blk t).view.set ↔ ∀ a : Fin 2, win0_9.index t a * S512x32.size a ≤ (i a).val ∧ (i a).val < win0_9.index t a * S512x32.size a + S512x32.size a := by
  show i ∈ ((View.whole main_v21_0).slice (win0_9.rect t)).set ↔ _
  rw [View.set_slice_whole, Rect.mem_set_unit]
  exact Iff.rfl

/-- Every index of result window 9's array lies in the block of the point that handles its row: point ⌊row / 512⌋. -/
theorem cover9 (i : S16384x32.Idx) : ∃ t : Fin cfg0.N, (cfg0.win 9).flush t = true ∧ i ∈ ((cfg0.win 9).blk t).view.set := by
  have hi0 : (i 0).val < 16384 := (i 0).isLt
  have hi1 : (i 1).val < 32 := (i 1).isLt
  have hN : (i 0).val / 512 < cfg0.N := lt_of_lt_of_eq (show (i 0).val / 512 < 32 by omega) (N_0 : cfg0.N = 32).symm
  refine ⟨⟨(i 0).val / 512, hN⟩, flush0_9 _, ?_⟩
  rw [mem_blk9]
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 512, hN⟩
  intro a
  match a with
  | ⟨0, _⟩ =>
    show win0_9.index ⟨(i 0).val / 512, hN⟩ (0 : Fin 2) * 512 ≤ (i 0).val ∧ (i 0).val < win0_9.index ⟨(i 0).val / 512, hN⟩ (0 : Fin 2) * 512 + 512
    rw [e9a]; show (i 0).val / 512 * 512 ≤ (i 0).val ∧ (i 0).val < (i 0).val / 512 * 512 + 512; omega
  | ⟨1, _⟩ =>
    show win0_9.index ⟨(i 0).val / 512, hN⟩ (1 : Fin 2) * 32 ≤ (i 1).val ∧ (i 1).val < win0_9.index ⟨(i 0).val / 512, hN⟩ (1 : Fin 2) * 32 + 32
    rw [e9b]; omega

/-- An index of result window 10's array is in point t's block iff each coordinate is in the block's range. -/
theorem mem_blk10 (t : Fin cfg0.N) (i : S16384x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v21_1).slice (win0_10.rect t)).set ↔ _
  rw [View.set_slice_whole, Rect.mem_set_unit]
  exact Iff.rfl

/-- Every index of result window 10's array lies in the block of the point that handles its row: point ⌊row / 512⌋. -/
theorem cover10 (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  have hN : (i 0).val / 512 < cfg0.N := lt_of_lt_of_eq (show (i 0).val / 512 < 32 by omega) (N_0 : cfg0.N = 32).symm
  refine ⟨⟨(i 0).val / 512, hN⟩, flush0_10 _, ?_⟩
  rw [mem_blk10]
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 512, hN⟩
  intro a
  match a with
  | ⟨0, _⟩ =>
    show win0_10.index ⟨(i 0).val / 512, hN⟩ (0 : Fin 2) * 512 ≤ (i 0).val ∧ (i 0).val < win0_10.index ⟨(i 0).val / 512, hN⟩ (0 : Fin 2) * 512 + 512
    rw [e10a]; show (i 0).val / 512 * 512 ≤ (i 0).val ∧ (i 0).val < (i 0).val / 512 * 512 + 512; omega
  | ⟨1, _⟩ =>
    show win0_10.index ⟨(i 0).val / 512, hN⟩ (1 : Fin 2) * 1024 ≤ (i 1).val ∧ (i 1).val < win0_10.index ⟨(i 0).val / 512, hN⟩ (1 : Fin 2) * 1024 + 1024
    rw [e10b]; omega

/-- An index of result window 11's array is in point t's block iff each coordinate is in the block's range. -/
theorem mem_blk11 (t : Fin cfg0.N) (i : S16384x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v21_2).slice (win0_11.rect t)).set ↔ _
  rw [View.set_slice_whole, Rect.mem_set_unit]
  exact Iff.rfl

/-- Every index of result window 11's array lies in the block of the point that handles its row: point ⌊row / 512⌋. -/
theorem cover11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  have hN : (i 0).val / 512 < cfg0.N := lt_of_lt_of_eq (show (i 0).val / 512 < 32 by omega) (N_0 : cfg0.N = 32).symm
  refine ⟨⟨(i 0).val / 512, hN⟩, flush0_11 _, ?_⟩
  rw [mem_blk11]
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 512, hN⟩
  intro a
  match a with
  | ⟨0, _⟩ =>
    show win0_11.index ⟨(i 0).val / 512, hN⟩ (0 : Fin 2) * 512 ≤ (i 0).val ∧ (i 0).val < win0_11.index ⟨(i 0).val / 512, hN⟩ (0 : Fin 2) * 512 + 512
    rw [e11a]; show (i 0).val / 512 * 512 ≤ (i 0).val ∧ (i 0).val < (i 0).val / 512 * 512 + 512; omega
  | ⟨1, _⟩ =>
    show win0_11.index ⟨(i 0).val / 512, hN⟩ (1 : Fin 2) * 1024 ≤ (i 1).val ∧ (i 1).val < win0_11.index ⟨(i 0).val / 512, hN⟩ (1 : Fin 2) * 1024 + 1024
    rw [e11b]; omega

/-! ## The result arrays after the run -/

/-- After the run the third result array is the whole-batch new cell state of the arrays as the region found them. -/
theorem final11 : (dats m 0 c).arrAt 11 cfg0.N = Gc (aX m c) (aH m c) (aC m c) (aWih m c) (aWhh m c) (aBih m c) (aBhh m c) :=
  (dats m 0 c).arrAt_eq_of_cover 11 _ (fun t _ => flushed11_eq m c t) cover11

/-- After the run the second result array is the whole-batch new hidden state. -/
theorem final10 : (dats m 0 c).arrAt 10 cfg0.N = Gh (aX m c) (aH m c) (aC m c) (aWih m c) (aWhh m c) (aBih m c) (aBhh m c) :=
  (dats m 0 c).arrAt_eq_of_cover 10 _ (fun t _ => flushed10_eq m c t) cover10

/-- After the run the first result array is the whole-batch class probabilities. -/
theorem final9 : (dats m 0 c).arrAt 9 cfg0.N = Gp (aX m c) (aH m c) (aC m c) (aWih m c) (aWhh m c) (aBih m c) (aBhh m c) (aWfc m c) (aBfc m c) :=
  (dats m 0 c).arrAt_eq_of_cover 9 _ (fun t _ => flushed9_eq m c t) cover9

end Cert.KernelIdeal.Blocks

end
-- ==== Proof.HostSide.lean ====
/-
  What the kernel region's input windows hold when the region is entered.

  Before its one region the kernel program runs a line of host operations on the arguments: the embedding lookup
  (two gathers of the table's rows at the normalised indices, joined along the feature axis), a change of float
  format of the three weight matrices, and a reshape of the three bias vectors to one-row matrices. At the ideal
  values a change of format is the identity and a reshape [n] → [1, n] reads the vector at the column, so the weight
  windows hold the weight arguments, the bias windows hold the bias arguments along their one row, and the lookup is
  the same term the reference program computes from the same three arguments.
-/
import proofs.«158258_j56341380989616_1_alg».proof.Proof.Gen.KernelIdeal.Frame
import proofs.«158258_j56341380989616_1_alg».proof.Proof.Gen.ReferenceIdeal.Read
import Idealize.ShloMosaic.Lib.ValueLayout
import Idealize.ShloMosaic.Lib.ValueIdx

noncomputable section

namespace Cert.KernelIdeal.HostSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The embedding lookup: the reference's own term -/

/-- The lookup window holds the join, along the feature axis, of the table's rows gathered at the two normalised
    index vectors: the very term the reference program builds from the same index vectors and the same table. The two
    programs spell the shapes and the gather's dimension numbers by separate names for the same literals, so the two
    terms agree by unfolding names only; the gather itself is never opened. -/
theorem V_x :
    (V m c main_v14 : S16384x256.Idx → EReal)
      = Cert.ReferenceIdeal.Read.val_main_v14 (F := Ideal) (m ((c : Thread nD τ).loc main_arg0))
          (m ((c : Thread nD τ).loc main_arg1)) (m ((c : Thread nD τ).loc main_arg4)) := by
  dsimp only [Gen.V, Gen.hostOps0]; after_results_simp; all_goals rfl

/-! ## The weights: a change of float format is the identity on extended reals -/

/-- The input-to-hidden weights' window holds the argument: the narrowing to bf16 changes nothing at the ideal values. -/
theorem V_wih (i : S4096x256.Idx) :
    (V m c main_v15 : S4096x256.Idx → EReal) i = m ((c : Thread nD τ).loc main_arg5) i := by
  have e : (V m c main_v15 : S4096x256.Idx → EReal)
      = truncf (F := Ideal) .bf16 (m ((c : Thread nD τ).loc main_arg5) : FVec Ideal S4096x256 .f32) Gen.bitsLt_bf16_f32 := by
    dsimp only [Gen.V, Gen.hostOps0]; after_results; all_goals rfl
  rw [e]; rfl

/-- The hidden-to-hidden weights' window holds the argument. -/
theorem V_whh (i : S4096x1024.Idx) :
    (V m c main_v16 : S4096x1024.Idx → EReal) i = m ((c : Thread nD τ).loc main_arg6) i := by
  have e : (V m c main_v16 : S4096x1024.Idx → EReal)
      = truncf (F := Ideal) .bf16 (m ((c : Thread nD τ).loc main_arg6) : FVec Ideal S4096x1024 .f32) Gen.bitsLt_bf16_f32 := by
    dsimp only [Gen.V, Gen.hostOps0]; after_results; all_goals rfl
  rw [e]; rfl

/-- The output layer's weights' window holds the argument. -/
theorem V_wfc (i : S32x1024.Idx) :
    (V m c main_v17 : S32x1024.Idx → EReal) i = m ((c : Thread nD τ).loc main_arg9) i := by
  have e : (V m c main_v17 : S32x1024.Idx → EReal)
      = truncf (F := Ideal) .bf16 (m ((c : Thread nD τ).loc main_arg9) : FVec Ideal S32x1024 .f32) Gen.bitsLt_bf16_f32 := by
    dsimp only [Gen.V, Gen.hostOps0]; after_results; all_goals rfl
  rw [e]; rfl

/-! ## The biases: a vector reshaped to a one-row matrix reads the vector at the column -/

/-- The input-to-hidden bias window's one row is the argument. -/
theorem V_bih (r : Fin 4096) :
    (V m c main_v18 : S1x4096.Idx → EReal) (ix2 (0 : Fin 1) r) = m ((c : Thread nD τ).loc main_arg7) (ix1 r) := by
  have e : (V m c main_v18 : S1x4096.Idx → EReal)
      = shapeCast S1x4096 (m ((c : Thread nD τ).loc main_arg7) : S4096.Idx → EReal) Gen.shapeCasts_S4096_S1x4096 := by
    dsimp only [Gen.V, Gen.hostOps0]; after_results; all_goals rfl
  rw [e]
  exact shapeCast_a_1a_apply _ _ (0 : Fin 1) r

/-- The hidden-to-hidden bias window's one row is the argument. -/
theorem V_bhh (r : Fin 4096) :
    (V m c main_v19 : S1x4096.Idx → EReal) (ix2 (0 : Fin 1) r) = m ((c : Thread nD τ).loc main_arg8) (ix1 r) := by
  have e : (V m c main_v19 : S1x4096.Idx → EReal)
      = shapeCast S1x4096 (m ((c : Thread nD τ).loc main_arg8) : S4096.Idx → EReal) Gen.shapeCasts_S4096_S1x4096 := by
    dsimp only [Gen.V, Gen.hostOps0]; after_results; all_goals rfl
  rw [e]
  exact shapeCast_a_1a_apply _ _ (0 : Fin 1) r

/-- The output layer's bias window's one row is the argument. -/
theorem V_bfc (v : Fin 32) :
    (V m c main_v20 : S1x32.Idx → EReal) (ix2 (0 : Fin 1) v) = m ((c : Thread nD τ).loc main_arg10) (ix1 v) := by
  have e : (V m c main_v20 : S1x32.Idx → EReal)
      = shapeCast S1x32 (m ((c : Thread nD τ).loc main_arg10) : S32.Idx → EReal) Gen.shapeCasts_S32_S1x32 := by
    dsimp only [Gen.V, Gen.hostOps0]; after_results; all_goals rfl
  rw [e]
  exact shapeCast_a_1a_apply _ _ (0 : Fin 1) v

end Cert.KernelIdeal.HostSide

end
-- ==== Proof.KValue.lean ====
/-
  The kernel's three result arrays after the run, as functions of its arguments.

  When the region is entered the looked-up input is the same chain of host operations of the index and embedding
  arguments that the reference applies, the hidden and cell states are the arguments themselves, the weights are the
  arguments (the change of float format is the identity on the extended reals), and each bias row is its argument
  vector laid out as one row. Substituting these into the whole-batch functions the blocks add up to gives the
  results as functions of the eleven arguments.
-/
import proofs.«158258_j56341380989616_1_alg».proof.Proof.Blocks
import proofs.«158258_j56341380989616_1_alg».proof.Proof.HostSide

noncomputable section

open Idealize.ShloMosaic Idealize.ShloMosaic.TcCoe Idealize.ShloMosaic.ValueIdx Idealize.SL.Sem
open Cert.KernelIdeal Cert.KernelIdeal.Gen Cert.Lstm

namespace Cert.KernelIdeal.KValue

variable (m : (ℓ : Loc nD τ sig) → Buf (Elt Ideal) ℓ) (c : Dev nD)

/-- The looked-up input: the embedding rows of the two index vectors side by side, as the reference's program spells
    the same host operations. -/
abbrev kX : Mat 16384 256 :=
  Cert.ReferenceIdeal.Read.val_main_v14 (F := Ideal) (m ((c : Thread nD τ).loc main_arg0)) (m ((c : Thread nD τ).loc main_arg1)) (m ((c : Thread nD τ).loc main_arg4))

theorem aX_eq : Blocks.aX m c = kX m c := HostSide.V_x m c
theorem aH_eq : Blocks.aH m c = m ((c : Thread nD τ).loc main_arg2) := V_main_arg2 m c
theorem aC_eq : Blocks.aC m c = m ((c : Thread nD τ).loc main_arg3) := V_main_arg3 m c
theorem aWih_eq : Blocks.aWih m c = m ((c : Thread nD τ).loc main_arg5) := funext (HostSide.V_wih m c)
theorem aWhh_eq : Blocks.aWhh m c = m ((c : Thread nD τ).loc main_arg6) := funext (HostSide.V_whh m c)
theorem aWfc_eq : Blocks.aWfc m c = m ((c : Thread nD τ).loc main_arg9) := funext (HostSide.V_wfc m c)
theorem aBih_eq : Blocks.aBih m c = m ((c : Thread nD τ).loc main_arg7) :=
  funext fun i => by rw [eq_ix1 i]; exact HostSide.V_bih m c (i 0)
theorem aBhh_eq : Blocks.aBhh m c = m ((c : Thread nD τ).loc main_arg8) :=
  funext fun i => by rw [eq_ix1 i]; exact HostSide.V_bhh m c (i 0)
theorem aBfc_eq : Blocks.aBfc m c = m ((c : Thread nD τ).loc main_arg10) :=
  funext fun i => by rw [eq_ix1 i]; exact HostSide.V_bfc m c (i 0)

/-- The third result array: the new cell state of the arguments. -/
theorem final_c : (dats m 0 c).arrAt 11 cfg0.N = Gc (kX m c) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  rw [Blocks.final11 m c, aX_eq m c, aH_eq m c, aC_eq m c, aWih_eq m c, aWhh_eq m c, aBih_eq m c, aBhh_eq m c]

/-- The second result array: the new hidden state of the arguments. -/
theorem final_h : (dats m 0 c).arrAt 10 cfg0.N = Gh (kX m c) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  rw [Blocks.final10 m c, aX_eq m c, aH_eq m c, aC_eq m c, aWih_eq m c, aWhh_eq m c, aBih_eq m c, aBhh_eq m c]

/-- The first result array: the class probabilities of the arguments. -/
theorem final_p : (dats m 0 c).arrAt 9 cfg0.N = Gp (kX m c) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Blocks.final9 m c, aX_eq m c, aH_eq m c, aC_eq m c, aWih_eq m c, aWhh_eq m c, aBih_eq m c, aBhh_eq m c,
    aWfc_eq m c, aBfc_eq m c]

/-- Every weakly fair execution of the kernel's program terminates with the three results at these functions of the
    arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21_0) = Gp (kX m c) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v21_1) = Gh (kX m c) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))
      ∧ r.2.mem ((c : Thread nD τ).loc main_v21_2) = Gc (kX m c) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_p m c), (h c).2.1.trans (final_h m c),
      (h c).2.2.1.trans (final_c m c), (h c).2.2.2⟩)
    (Cert.KernelIdeal.Value.run_blocks m ρ)

end Cert.KernelIdeal.KValue

end
-- ==== Proof.RefValue.lean ====
/-
  The reference's three results are the specification's three functions.

  The reference computes, entry by entry on the extended reals, the stacked gate pre-activations
  (x·W_ihᵀ + b_ih) + h·W_hhᵀ + b_hh, cuts them into the four gates' column blocks of width 1024 (input, forget,
  cell, output), spells the sigmoid as 1/(1 + exp(−z)), forms the new cell state c' = σ(f)·c + σ(i)·tanh(g) and the
  new hidden state h' = σ(o)·tanh(c'), reads c' out into 32 class scores c'·W_fcᵀ + b_fc and normalises each row by
  a softmax: exp(score − M) over the row's sum of these, M the row's largest score. Each stage is read at an entry
  (b, r) and identified with the specification's formula there; the only algebra is the order in which the first
  bias and the hidden projection are added.
-/
import proofs.«158258_j56341380989616_1_alg».proof.Proof.Gen.ReferenceIdeal.Read
import proofs.«158258_j56341380989616_1_alg».proof.Proof.Spec
import proofs.«158258_j56341380989616_1_alg».proof.Proof.LibHostRowStats
import Idealize.ShloMosaic.Lib.IdealHost

noncomputable section

namespace Cert.ReferenceIdeal.RefValue

open Cert.ReferenceIdeal Cert.ReferenceIdeal.Read Idealize.ShloMosaic Idealize.ShloMosaic.ValueIdx
open scoped BigOperators

/-! ## The indices the stages read, at an entry given by its coordinates -/

/-- The input projection's left operand at output entry (b, r), term k, is entry (b, k). -/
theorem lidx16_at (b : Fin 16384) (r : Fin 4096) (k : Fin 256) : lidx_main_v16 (ix2 b r) k = ix2 b k :=
  funext fun a => by match a with | ⟨0, _⟩ => rfl | ⟨1, _⟩ => rfl
/-- Its right operand is the transposed weight: entry (r, k) of W_ih. -/
theorem ridx16_at (b : Fin 16384) (r : Fin 4096) (k : Fin 256) : idx_main_v15 (ridx_main_v16 (ix2 b r) k) = ix2 r k :=
  funext fun a => by match a with | ⟨0, _⟩ => rfl | ⟨1, _⟩ => rfl
/-- The hidden projection's left operand at output entry (b, r), term k, is entry (b, k). -/
theorem lidx21_at (b : Fin 16384) (r : Fin 4096) (k : Fin 1024) : lidx_main_v21 (ix2 b r) k = ix2 b k :=
  funext fun a => by match a with | ⟨0, _⟩ => rfl | ⟨1, _⟩ => rfl
/-- Its right operand is the transposed weight: entry (r, k) of W_hh. -/
theorem ridx21_at (b : Fin 16384) (r : Fin 4096) (k : Fin 1024) : idx_main_v20 (ridx_main_v21 (ix2 b r) k) = ix2 r k :=
  funext fun a => by match a with | ⟨0, _⟩ => rfl | ⟨1, _⟩ => rfl
/-- The first bias, broadcast along the batch, is read at r. -/
theorem bidx18_at (b : Fin 16384) (r : Fin 4096) : idx_main_v17 (idx_main_v18 (ix2 b r)) = ix1 r :=
  funext fun a => by match a with | ⟨0, _⟩ => rfl
/-- The second bias, broadcast along the batch, is read at r. -/
theorem bidx24_at (b : Fin 16384) (r : Fin 4096) : idx_main_v23 (idx_main_v24 (ix2 b r)) = ix1 r :=
  funext fun a => by match a with | ⟨0, _⟩ => rfl

/-! ## The gate pre-activations -/

/-- The input projection at (b, r): Σₑ x(b,e)·W_ih(r,e). -/
theorem v16_at (x0 x1 : (⟨S16384, .i32⟩ : BufTy).Contents (Elt Ideal)) (x4 : (⟨S32x128, .f32⟩ : BufTy).Contents (Elt Ideal)) (x5 : (⟨S4096x256, .f32⟩ : BufTy).Contents (Elt Ideal)) (b : Fin 16384) (r : Fin 4096) :
    val_main_v16 (F := Ideal) x0 x1 x4 x5 (ix2 b r) = ∑ e : Fin 256, val_main_v14 (F := Ideal) x0 x1 x4 (ix2 b e) * x5 (ix2 r e) := by
  refine (val_main_v16_apply x0 x1 x4 x5 (ix2 b r)).trans (Finset.sum_congr rfl fun k _ => ?_)
  rw [lidx16_at b r k, val_main_v15_apply, ridx16_at b r k]

/-- The hidden projection at (b, r): Σ_d h(b,d)·W_hh(r,d). -/
theorem v21_at (x2 : (⟨S16384x1024, .f32⟩ : BufTy).Contents (Elt Ideal)) (x6 : (⟨S4096x1024, .f32⟩ : BufTy).Contents (Elt Ideal)) (b : Fin 16384) (r : Fin 4096) :
    val_main_v21 (F := Ideal) x2 x6 (ix2 b r) = ∑ d : Fin 1024, x2 (ix2 b d) * x6 (ix2 r d) := by
  refine (val_main_v21_apply x2 x6 (ix2 b r)).trans (Finset.sum_congr rfl fun k _ => ?_)
  rw [lidx21_at b r k, val_main_v20_apply, ridx21_at b r k]

/-- The stacked pre-activation at (b, r) is the specification's: the reference adds the first bias before the
    hidden projection, the specification after. -/
theorem v25_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (r : Fin 4096) :
    val_main_v25 (F := Ideal) x0 x1 x2 x4 x5 x6 x7 x8 (ix2 b r)
      = Cert.Lstm.pre (val_main_v14 (F := Ideal) x0 x1 x4) x2 x5 x6 x7 x8 b r := by
  rw [val_main_v25_apply, val_main_v22_apply, val_main_v19_apply, v16_at, v21_at, val_main_v18_apply,
    val_main_v17_apply, bidx18_at, val_main_v24_apply, val_main_v23_apply, bidx24_at]
  exact Cert.Lstm.add_bias_order _ _ _ _

/-! ## The four gates' column blocks -/

/-- Column block 0 of the stacked pre-activations starts at column 0: its entry (b, j) is entry (b, 1024·0 + j). -/
theorem sidx26_at (b : Fin 16384) (j : Fin 1024) : idx_main_v26 (ix2 b j) = ix2 b (Cert.Lstm.grow 0 j) :=
  funext fun a => by
    match a with
    | ⟨0, _⟩ => rfl
    | ⟨1, _⟩ => exact Fin.ext (by show j.val = 1024 * 0 + j.val; omega)
theorem v26_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v26 (F := Ideal) x0 x1 x2 x4 x5 x6 x7 x8 (ix2 b j) = Cert.Lstm.pre (val_main_v14 (F := Ideal) x0 x1 x4) x2 x5 x6 x7 x8 b (Cert.Lstm.grow 0 j) := by
  rw [val_main_v26_apply, sidx26_at, v25_at]

/-- Column block 1 of the stacked pre-activations starts at column 1024: its entry (b, j) is entry (b, 1024·1 + j). -/
theorem sidx27_at (b : Fin 16384) (j : Fin 1024) : idx_main_v27 (ix2 b j) = ix2 b (Cert.Lstm.grow 1 j) :=
  funext fun a => by
    match a with
    | ⟨0, _⟩ => rfl
    | ⟨1, _⟩ => exact Fin.ext (by show 1024 + j.val = 1024 * 1 + j.val; omega)
theorem v27_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v27 (F := Ideal) x0 x1 x2 x4 x5 x6 x7 x8 (ix2 b j) = Cert.Lstm.pre (val_main_v14 (F := Ideal) x0 x1 x4) x2 x5 x6 x7 x8 b (Cert.Lstm.grow 1 j) := by
  rw [val_main_v27_apply, sidx27_at, v25_at]

/-- Column block 2 of the stacked pre-activations starts at column 2048: its entry (b, j) is entry (b, 1024·2 + j). -/
theorem sidx28_at (b : Fin 16384) (j : Fin 1024) : idx_main_v28 (ix2 b j) = ix2 b (Cert.Lstm.grow 2 j) :=
  funext fun a => by
    match a with
    | ⟨0, _⟩ => rfl
    | ⟨1, _⟩ => exact Fin.ext (by show 2048 + j.val = 1024 * 2 + j.val; omega)
theorem v28_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v28 (F := Ideal) x0 x1 x2 x4 x5 x6 x7 x8 (ix2 b j) = Cert.Lstm.pre (val_main_v14 (F := Ideal) x0 x1 x4) x2 x5 x6 x7 x8 b (Cert.Lstm.grow 2 j) := by
  rw [val_main_v28_apply, sidx28_at, v25_at]

/-- Column block 3 of the stacked pre-activations starts at column 3072: its entry (b, j) is entry (b, 1024·3 + j). -/
theorem sidx29_at (b : Fin 16384) (j : Fin 1024) : idx_main_v29 (ix2 b j) = ix2 b (Cert.Lstm.grow 3 j) :=
  funext fun a => by
    match a with
    | ⟨0, _⟩ => rfl
    | ⟨1, _⟩ => exact Fin.ext (by show 3072 + j.val = 1024 * 3 + j.val; omega)
theorem v29_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v29 (F := Ideal) x0 x1 x2 x4 x5 x6 x7 x8 (ix2 b j) = Cert.Lstm.pre (val_main_v14 (F := Ideal) x0 x1 x4) x2 x5 x6 x7 x8 b (Cert.Lstm.grow 3 j) := by
  rw [val_main_v29_apply, sidx29_at, v25_at]

/-! ## The sigmoid, spelt as a quotient -/

/-- With the constant word read as the extended real 1, the quotient 1/(1 + exp(−z)) is the sigmoid by definition. -/
theorem sig_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.logistic z
  rw [Ideal.ofBits_one_f32]; rfl

/-- The forget gate: 1/(1 + exp(−z)) at the gate's pre-activation is the sigmoid there. -/
theorem v35_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v35 (F := Ideal) x0 x1 x2 x4 x5 x6 x7 x8 (ix2 b j) = Ideal.logistic (Cert.Lstm.pre (val_main_v14 (F := Ideal) x0 x1 x4) x2 x5 x6 x7 x8 b (Cert.Lstm.grow 1 j)) := by
  rw [val_main_v35_apply, val_main_v34_apply, val_main_cst_3_apply, val_main_v33_apply, val_main_v32_apply, val_main_cst_apply, val_main_v31_apply, val_main_v30_apply, v27_at]
  exact sig_spelt _

/-- The input gate: 1/(1 + exp(−z)) at the gate's pre-activation is the sigmoid there. -/
theorem v42_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v42 (F := Ideal) x0 x1 x2 x4 x5 x6 x7 x8 (ix2 b j) = Ideal.logistic (Cert.Lstm.pre (val_main_v14 (F := Ideal) x0 x1 x4) x2 x5 x6 x7 x8 b (Cert.Lstm.grow 0 j)) := by
  rw [val_main_v42_apply, val_main_v41_apply, val_main_cst_5_apply, val_main_v40_apply, val_main_v39_apply, val_main_cst_4_apply, val_main_v38_apply, val_main_v37_apply, v26_at]
  exact sig_spelt _

/-- The output gate: 1/(1 + exp(−z)) at the gate's pre-activation is the sigmoid there. -/
theorem v51_at (x0 x1 : (⟨S16384, .i32⟩ : BufTy).Contents (Elt Ideal)) (x2 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v51 (F := Ideal) x0 x1 x2 x4 x5 x6 x7 x8 (ix2 b j) = Ideal.logistic (Cert.Lstm.pre (val_main_v14 (F := Ideal) x0 x1 x4) x2 x5 x6 x7 x8 b (Cert.Lstm.grow 3 j)) := by
  rw [val_main_v51_apply, val_main_v50_apply, val_main_cst_7_apply, val_main_v49_apply, val_main_v48_apply, val_main_cst_6_apply, val_main_v47_apply, val_main_v46_apply, v29_at]
  exact sig_spelt _

/-! ## The new cell state and the new hidden state -/

/-- c'(b,j) = σ(forget)·c(b,j) + σ(input)·tanh(cell). -/
theorem v45_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v45 (F := Ideal) x0 x1 x2 x3 x4 x5 x6 x7 x8 (ix2 b j) = Cert.Lstm.cnew (val_main_v14 (F := Ideal) x0 x1 x4) x2 x3 x5 x6 x7 x8 b j := by
  rw [val_main_v45_apply, val_main_v36_apply, v35_at, val_main_v44_apply, v42_at, val_main_v43_apply, v28_at]
  rfl

/-- h'(b,j) = σ(output)·tanh(c'(b,j)). -/
theorem v53_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (b : Fin 16384) (j : Fin 1024) :
    val_main_v53 (F := Ideal) x0 x1 x2 x3 x4 x5 x6 x7 x8 (ix2 b j) = Cert.Lstm.hnew (val_main_v14 (F := Ideal) x0 x1 x4) x2 x3 x5 x6 x7 x8 b j := by
  rw [val_main_v53_apply, v51_at, val_main_v52_apply, v45_at]
  rfl

theorem ref_cnew (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) :
    val_main_v45 (F := Ideal) x0 x1 x2 x3 x4 x5 x6 x7 x8 = Cert.Lstm.Gc (val_main_v14 (F := Ideal) x0 x1 x4) x2 x3 x5 x6 x7 x8 := by
  funext i
  obtain ⟨b, j, rfl⟩ : ∃ (b : Fin 16384) (j : Fin 1024), i = ix2 b j := ⟨i 0, i 1, eq_ix2 i⟩
  exact v45_at x0 x1 x2 x3 x4 x5 x6 x7 x8 b j

theorem ref_hnew (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) :
    val_main_v53 (F := Ideal) x0 x1 x2 x3 x4 x5 x6 x7 x8 = Cert.Lstm.Gh (val_main_v14 (F := Ideal) x0 x1 x4) x2 x3 x5 x6 x7 x8 := by
  funext i
  obtain ⟨b, j, rfl⟩ : ∃ (b : Fin 16384) (j : Fin 1024), i = ix2 b j := ⟨i 0, i 1, eq_ix2 i⟩
  exact v53_at x0 x1 x2 x3 x4 x5 x6 x7 x8 b j

/-! ## The class scores -/

/-- The read-out's left operand at output entry (b, v), term k, is entry (b, k) of the new cell state. -/
theorem lidx55_at (b : Fin 16384) (v : Fin 32) (k : Fin 1024) : lidx_main_v55 (ix2 b v) k = ix2 b k :=
  funext fun a => by match a with | ⟨0, _⟩ => rfl | ⟨1, _⟩ => rfl
/-- Its right operand is the transposed weight: entry (v, k) of W_fc. -/
theorem ridx55_at (b : Fin 16384) (v : Fin 32) (k : Fin 1024) : idx_main_v54 (ridx_main_v55 (ix2 b v) k) = ix2 v k :=
  funext fun a => by match a with | ⟨0, _⟩ => rfl | ⟨1, _⟩ => rfl
/-- The read-out's bias, broadcast along the batch, is read at v. -/
theorem bidx57_at (b : Fin 16384) (v : Fin 32) : idx_main_v56 (idx_main_v57 (ix2 b v)) = ix1 v :=
  funext fun a => by match a with | ⟨0, _⟩ => rfl

/-- logit(b,v) = Σ_d c'(b,d)·W_fc(v,d) + b_fc(v). -/
theorem v58_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) (b : Fin 16384) (v : Fin 32) :
    val_main_v58 (F := Ideal) x0 x1 x2 x3 x4 x5 x6 x7 x8 x9 x10 (ix2 b v) = Cert.Lstm.logit (val_main_v14 (F := Ideal) x0 x1 x4) x2 x3 x5 x6 x7 x8 x9 x10 b v := by
  rw [val_main_v58_apply, val_main_v55_apply, val_main_v57_apply, val_main_v56_apply, bidx57_at]
  have hs : (∑ k : Fin 1024, val_main_v45 (F := Ideal) x0 x1 x2 x3 x4 x5 x6 x7 x8 (lidx_main_v55 (ix2 b v) k) * val_main_v54 (F := Ideal) x9 (ridx_main_v55 (ix2 b v) k))
      = ∑ d : Fin 1024, Cert.Lstm.cnew (val_main_v14 (F := Ideal) x0 x1 x4) x2 x3 x5 x6 x7 x8 b d * x9 (ix2 v d) :=
    Finset.sum_congr rfl fun k _ => by rw [lidx55_at, v45_at, val_main_v54_apply, ridx55_at]
  rw [hs]
  rfl

/-! ## The row maximum -/

/-- The running maximum of row b's scores from −∞. -/
theorem v59_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) (b : Fin 16384) :
    val_main_v59 (F := Ideal) x0 x1 x2 x3 x4 x5 x6 x7 x8 x9 x10 (ix1 b) = (Finset.univ : Finset (Fin 32)).fold max ⊥ (fun v => Cert.Lstm.logit (val_main_v14 (F := Ideal) x0 x1 x4) x2 x3 x5 x6 x7 x8 x9 x10 b v) := by
  unfold val_main_v59 val_main_cst_8
  refine (Cert.LibHostRowStats.hostMax_row _ _ (by decide) _ b).trans ?_
  exact Finset.fold_congr fun v _ => v58_at x0 x1 x2 x3 x4 x5 x6 x7 x8 x9 x10 b v

/-- The row maximum, taken once more against −∞. -/
theorem v61_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) (b : Fin 16384) :
    val_main_v61 (F := Ideal) x0 x1 x2 x3 x4 x5 x6 x7 x8 x9 x10 (ix1 b) = Cert.Lstm.rowmax (val_main_v14 (F := Ideal) x0 x1 x4) x2 x3 x5 x6 x7 x8 x9 x10 b := by
  rw [val_main_v61_apply, val_main_v60_apply, val_main_cst_9_apply, v59_at]
  show max (Ideal.ofBits .f32 0xFF800000#32) _ = _
  rw [Cert.LibHostRowStats.negInf_f32]
  rfl

/-- The row maximum, broadcast along the classes, is read at b. -/
theorem midx63_at (b : Fin 16384) (v : Fin 32) : idx_main_v62 (idx_main_v63 (ix2 b v)) = ix1 b :=
  funext fun a => by match a with | ⟨0, _⟩ => rfl
theorem v63_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) (b : Fin 16384) (v : Fin 32) :
    val_main_v63 (F := Ideal) x0 x1 x2 x3 x4 x5 x6 x7 x8 x9 x10 (ix2 b v) = Cert.Lstm.rowmax (val_main_v14 (F := Ideal) x0 x1 x4) x2 x3 x5 x6 x7 x8 x9 x10 b := by
  rw [val_main_v63_apply, val_main_v62_apply, midx63_at, v61_at]

/-! ## The softmax -/

/-- exp(logit − M). -/
theorem v65_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) (b : Fin 16384) (v : Fin 32) :
    val_main_v65 (F := Ideal) x0 x1 x2 x3 x4 x5 x6 x7 x8 x9 x10 (ix2 b v) = Ideal.exp (Cert.Lstm.logit (val_main_v14 (F := Ideal) x0 x1 x4) x2 x3 x5 x6 x7 x8 x9 x10 b v - Cert.Lstm.rowmax (val_main_v14 (F := Ideal) x0 x1 x4) x2 x3 x5 x6 x7 x8 x9 x10 b) := by
  rw [val_main_v65_apply, val_main_v64_apply, v58_at, v63_at]
  rfl

/-- The row sum's term k at row b is entry (b, k). -/
theorem sidx66_at (b : Fin 16384) (k : Fin 32) : idx_main_v66 (ix1 b) k = ix2 b k :=
  funext fun a => by match a with | ⟨0, _⟩ => rfl | ⟨1, _⟩ => rfl

/-- The row's normaliser: the sum from the constant 0. -/
theorem v66_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) (b : Fin 16384) :
    val_main_v66 (F := Ideal) x0 x1 x2 x3 x4 x5 x6 x7 x8 x9 x10 (ix1 b) = ∑ v' : Fin 32, Ideal.exp (Cert.Lstm.logit (val_main_v14 (F := Ideal) x0 x1 x4) x2 x3 x5 x6 x7 x8 x9 x10 b v' - Cert.Lstm.rowmax (val_main_v14 (F := Ideal) x0 x1 x4) x2 x3 x5 x6 x7 x8 x9 x10 b) := by
  rw [val_main_v66_apply, val_main_cst_10_apply]
  show Ideal.ofBits .f32 0x00000000#32 + _ = _
  rw [Ideal.ofBits_zero_f32, zero_add]
  exact Finset.sum_congr rfl fun k _ => by rw [sidx66_at, v65_at]

/-- The normaliser, broadcast along the classes, is read at b. -/
theorem didx68_at (b : Fin 16384) (v : Fin 32) : idx_main_v67 (idx_main_v68 (ix2 b v)) = ix1 b :=
  funext fun a => by match a with | ⟨0, _⟩ => rfl

/-- The class probability: exp(logit − M) over the row's normaliser. -/
theorem v69_at (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) (b : Fin 16384) (v : Fin 32) :
    val_main_v69 (F := Ideal) x0 x1 x2 x3 x4 x5 x6 x7 x8 x9 x10 (ix2 b v) = Cert.Lstm.prob (val_main_v14 (F := Ideal) x0 x1 x4) x2 x3 x5 x6 x7 x8 x9 x10 b v := by
  rw [val_main_v69_apply, v65_at, val_main_v68_apply, val_main_v67_apply, didx68_at, v66_at]
  rfl

theorem ref_prob (x0 x1 : (⟨S16384, .i32⟩ : BufTy).Contents (Elt Ideal)) (x2 x3 : (⟨S16384x1024, .f32⟩ : BufTy).Contents (Elt Ideal)) (x4 : (⟨S32x128, .f32⟩ : BufTy).Contents (Elt Ideal)) (x5 : (⟨S4096x256, .f32⟩ : BufTy).Contents (Elt Ideal)) (x6 : (⟨S4096x1024, .f32⟩ : BufTy).Contents (Elt Ideal)) (x7 x8 : (⟨S4096, .f32⟩ : BufTy).Contents (Elt Ideal)) (x9 : (⟨S32x1024, .f32⟩ : BufTy).Contents (Elt Ideal)) (x10 : (⟨S32, .f32⟩ : BufTy).Contents (Elt Ideal)) :
    val_main_v69 (F := Ideal) x0 x1 x2 x3 x4 x5 x6 x7 x8 x9 x10 = Cert.Lstm.Gp (val_main_v14 (F := Ideal) x0 x1 x4) x2 x3 x5 x6 x7 x8 x9 x10 := by
  funext i
  obtain ⟨b, v, rfl⟩ : ∃ (b : Fin 16384) (v : Fin 32), i = ix2 b v := ⟨i 0, i 1, eq_ix2 i⟩
  exact v69_at x0 x1 x2 x3 x4 x5 x6 x7 x8 x9 x10 b v

end Cert.ReferenceIdeal.RefValue

end
-- ==== Proof.lean ====
/-
  One LSTM cell step with a softmax read-out of the new cell state: a kernel tiled over the batch against the plain
  whole-batch computation, compared on the extended reals.

  Both programs look up two embedding rows per batch row and lay them side by side (the same host operations in
  both, carried here as one array x), form the four gate pre-activations x·W_ihᵀ + h·W_hhᵀ + b_ih + b_hh, and set
    c' = σ(forget)·c + σ(input)·tanh(cell),  h' = σ(output)·tanh(c'),  probabilities = softmax(c'·W_fcᵀ + b_fc).
  They differ in three ways, none of which changes a value on the extended reals. The kernel works on 32 blocks of
  512 batch rows and, per gate, on 1024 rows of the stacked weights, where the reference multiplies whole arrays
  and slices the result: a sum of products is the same sum whichever rows are computed together. The kernel adds
  the hidden projection before the first bias and the reference after it: + is commutative and associative on the
  extended reals, infinities included, so the precondition that the inputs are finite is never opened. The kernel
  rounds its matrix operands to a narrower float format, which is the identity on exact values, and its sigmoid is
  one operation where the reference spells 1 / (1 + exp(−z)): the same function by definition.
  The kernel's side is read off its generated run block by block and the blocks are shown to tile each result; the
  reference's side is its generated run read one operation at a time; the two meet in the functions of
  Proof/Spec.lean. The idealization rewrote nothing, so what it preserves is trivially true.
-/
import proofs.«158258_j56341380989616_1_alg».proof.Defs
import proofs.«158258_j56341380989616_1_alg».proof.Proof.Gen.Kernel
import proofs.«158258_j56341380989616_1_alg».proof.Proof.Gen.Kernel.Skeleton
import proofs.«158258_j56341380989616_1_alg».proof.Proof.Gen.Kernel.Launch
import proofs.«158258_j56341380989616_1_alg».proof.Proof.Gen.Kernel.Points
import proofs.«158258_j56341380989616_1_alg».proof.Proof.Gen.Kernel.Frame
import proofs.«158258_j56341380989616_1_alg».proof.Proof.Gen.KernelIdeal
import proofs.«158258_j56341380989616_1_alg».proof.Proof.Gen.KernelIdeal.Skeleton
import proofs.«158258_j56341380989616_1_alg».proof.Proof.Gen.KernelIdeal.Launch
import proofs.«158258_j56341380989616_1_alg».proof.Proof.Gen.KernelIdeal.Points
import proofs.«158258_j56341380989616_1_alg».proof.Proof.Gen.KernelIdeal.Frame
import proofs.«158258_j56341380989616_1_alg».proof.Proof.Gen.ReferenceIdeal
import proofs.«158258_j56341380989616_1_alg».proof.Proof.Gen.Pre_finite_inputs
import proofs.«158258_j56341380989616_1_alg».proof.Proof.Gen.KernelIdeal.Value
import proofs.«158258_j56341380989616_1_alg».proof.Proof.Gen.ReferenceIdeal.Run
import proofs.«158258_j56341380989616_1_alg».proof.Proof.Gen.ReferenceIdeal.Read
import proofs.«158258_j56341380989616_1_alg».proof.Proof.KValue
import proofs.«158258_j56341380989616_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with what it says of the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten on the way to the extended reals, so there is nothing to preserve. -/
theorem preserves : Cert.preserves_Kernel_KernelIdeal := trivial

/-- From memories that agree on the eleven arguments, both programs end with the class probabilities, the new
    hidden state and the new cell state of those arguments: the kernel block by block, the reference operation by
    operation, both the same three functions of the arguments. -/
theorem algebraic : Cert.algebraic_KernelIdeal_ReferenceIdeal := by
  intro m ρ m' ρ' _ hagree
  refine ⟨_, _, _, Cert.KernelIdeal.KValue.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨g0, g1, g2, g3, g4, g5, g6, g7, g8, g9, g10⟩ := hagree c
  refine ⟨?_, ?_, ?_, hargs⟩
  · rw [h0, Cert.ReferenceIdeal.Read.val_main_v69_eq, Cert.ReferenceIdeal.RefValue.ref_prob, g0, g1, g2, g3, g4, g5, g6, g7, g8, g9, g10]
  · rw [h1, Cert.ReferenceIdeal.Read.val_main_v53_eq, Cert.ReferenceIdeal.RefValue.ref_hnew, g0, g1, g2, g3, g4, g5, g6, g7, g8]
  · rw [h2, Cert.ReferenceIdeal.Read.val_main_v45_eq, Cert.ReferenceIdeal.RefValue.ref_cnew, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
